-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : FVec F S262144 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S_ : Shape := ⟨0, ![]⟩
abbrev S1 : Shape := ⟨1, ![1]⟩
abbrev S4 : Shape := ⟨1, ![4]⟩
abbrev S1x262144 : Shape := ⟨2, ![1, 262144]⟩
abbrev S2x4x256 : Shape := ⟨3, ![2, 4, 256]⟩
abbrev S8192x256 : Shape := ⟨2, ![8192, 256]⟩
abbrev S1x8192 : Shape := ⟨2, ![1, 8192]⟩
abbrev S1x4x256 : Shape := ⟨3, ![1, 4, 256]⟩
abbrev S4x256 : Shape := ⟨2, ![4, 256]⟩
abbrev S4x8192 : Shape := ⟨2, ![4, 8192]⟩
abbrev S4x1 : Shape := ⟨2, ![4, 1]⟩
abbrev S1x256 : Shape := ⟨2, ![1, 256]⟩
abbrev S256 : Shape := ⟨1, ![256]⟩

abbrev nBuf : Space → Nat
  | .hbm => 152
  | .vmem => 6
  | .smem => 0
  | _ => 0

abbrev hbmTy0_0 (i : Nat) : BufTy := match i % 128 with
  | 0 => ⟨S262144x256, .f32⟩
  | 1 => ⟨S262144, .f32⟩
  | 2 => ⟨S_, .f32⟩
  | 3 => ⟨S262144, .f32⟩
  | 4 => ⟨S262144, .i1⟩
  | 5 => ⟨S262144, .i32⟩
  | 6 => ⟨S_, .i32⟩
  | 7 => ⟨S_, .i32⟩
  | 8 => ⟨S_, .f32⟩
  | 9 => ⟨S262144, .f32⟩
  | 10 => ⟨S262144, .i1⟩
  | 11 => ⟨S_, .f32⟩
  | 12 => ⟨S262144, .f32⟩
  | 13 => ⟨S262144, .i1⟩
  | 14 => ⟨S262144, .i1⟩
  | 15 => ⟨S262144, .i32⟩
  | 16 => ⟨S_, .i32⟩
  | 17 => ⟨S_, .i32⟩
  | 18 => ⟨S_, .f32⟩
  | 19 => ⟨S262144, .f32⟩
  | 20 => ⟨S262144, .i1⟩
  | 21 => ⟨S_, .f32⟩
  | 22 => ⟨S262144, .f32⟩
  | 23 => ⟨S262144, .i1⟩
  | 24 => ⟨S262144, .i1⟩
  | 25 => ⟨S262144, .i32⟩
  | 26 => ⟨S_, .i32⟩
  | 27 => ⟨S_, .i32⟩
  | 28 => ⟨S_, .f32⟩
  | 29 => ⟨S262144, .f32⟩
  | 30 => ⟨S262144, .i1⟩
  | 31 => ⟨S_, .f32⟩
  | 32 => ⟨S262144, .f32⟩
  | 33 => ⟨S262144, .i1⟩
  | 34 => ⟨S262144, .i1⟩
  | 35 => ⟨S262144, .i32⟩
  | 36 => ⟨S_, .i32⟩
  | 37 => ⟨S_, .i32⟩
  | 38 => ⟨S1, .i32⟩
  | 39 => ⟨S1, .i32⟩
  | 40 => ⟨S1, .i32⟩
  | 41 => ⟨S1, .i32⟩
  | 42 => ⟨S4, .i32⟩
  | 43 => ⟨S4, .f32⟩
  | 44 => ⟨S1x262144, .f32⟩
  | 45 => ⟨S2x4x256, .f32⟩
  | 46 => ⟨S_, .f32⟩
  | 47 => ⟨S4x256, .f32⟩
  | 48 => ⟨S4x1, .f32⟩
  | 49 => ⟨S_, .f32⟩
  | 50 => ⟨S4x1, .f32⟩
  | 51 => ⟨S4x1, .i1⟩
  | 52 => ⟨S_, .f32⟩
  | 53 => ⟨S4, .f32⟩
  | 54 => ⟨S4, .f32⟩
  | 55 => ⟨S4x1, .f32⟩
  | 56 => ⟨S4x256, .f32⟩
  | 57 => ⟨S4x256, .f32⟩
  | 58 => ⟨S_, .f32⟩
  | 59 => ⟨S_, .f32⟩
  | 60 => ⟨S4x256, .i1⟩
  | 61 => ⟨S4x256, .f32⟩
  | 62 => ⟨S4x256, .f32⟩
  | 63 => ⟨S1x256, .f32⟩
  | 64 => ⟨S256, .f32⟩
  | 65 => ⟨S1x256, .f32⟩
  | 66 => ⟨S256, .f32⟩
  | 67 => ⟨S256, .f32⟩
  | 68 => ⟨S256, .f32⟩
  | 69 => ⟨S_, .f32⟩
  | 70 => ⟨S_, .f32⟩
  | 71 => ⟨S_, .f32⟩
  | 72 => ⟨S1x256, .f32⟩
  | 73 => ⟨S256, .f32⟩
  | 74 => ⟨S1x256, .f32⟩
  | 75 => ⟨S256, .f32⟩
  | 76 => ⟨S256, .f32⟩
  | 77 => ⟨S256, .f32⟩
  | 78 => ⟨S_, .f32⟩
  | 79 => ⟨S_, .f32⟩
  | 80 => ⟨S_, .f32⟩
  | 81 => ⟨S1x256, .f32⟩
  | 82 => ⟨S256, .f32⟩
  | 83 => ⟨S1x256, .f32⟩
  | 84 => ⟨S256, .f32⟩
  | 85 => ⟨S256, .f32⟩
  | 86 => ⟨S256, .f32⟩
  | 87 => ⟨S_, .f32⟩
  | 88 => ⟨S_, .f32⟩
  | 89 => ⟨S_, .f32⟩
  | 90 => ⟨S1x256, .f32⟩
  | 91 => ⟨S256, .f32⟩
  | 92 => ⟨S1x256, .f32⟩
  | 93 => ⟨S256, .f32⟩
  | 94 => ⟨S256, .f32⟩
  | 95 => ⟨S256, .f32⟩
  | 96 => ⟨S_, .f32⟩
  | 97 => ⟨S_, .f32⟩
  | 98 => ⟨S_, .f32⟩
  | 99 => ⟨S1x256, .f32⟩
  | 100 => ⟨S256, .f32⟩
  | 101 => ⟨S1x256, .f32⟩
  | 102 => ⟨S256, .f32⟩
  | 103 => ⟨S256, .f32⟩
  | 104 => ⟨S256, .f32⟩
  | 105 => ⟨S_, .f32⟩
  | 106 => ⟨S_, .f32⟩
  | 107 => ⟨S_, .f32⟩
  | 108 => ⟨S1x256, .f32⟩
  | 109 => ⟨S256, .f32⟩
  | 110 => ⟨S1x256, .f32⟩
  | 111 => ⟨S256, .f32⟩
  | 112 => ⟨S256, .f32⟩
  | 113 => ⟨S256, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S1x8192, .f32⟩
  | .local _ .vmem, ⟨3, _⟩ => ⟨S1x8192, .f32⟩
  | .local _ .vmem, ⟨4, _⟩ => ⟨S1x4x256, .f32⟩
  | .local _ .vmem, ⟨5, _⟩ => ⟨S1x4x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call3_v0 : Ref sig .tc := ⟨.hbm, 86, rfl⟩
abbrev main_call3_cst : Ref sig .tc := ⟨.hbm, 87, rfl⟩
abbrev main_call3_v1 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call4_v0 : Ref sig .tc := ⟨.hbm, 95, rfl⟩
abbrev main_call4_cst : Ref sig .tc := ⟨.hbm, 96, rfl⟩
abbrev main_call4_v1 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call5_v0 : Ref sig .tc := ⟨.hbm, 104, rfl⟩
abbrev main_call5_cst : Ref sig .tc := ⟨.hbm, 105, rfl⟩
abbrev main_call5_v1 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call6_v0 : Ref sig .tc := ⟨.hbm, 113, rfl⟩
abbrev main_call6_cst : Ref sig .tc := ⟨.hbm, 114, rfl⟩
abbrev main_call6_v1 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_v80 : Ref sig .tc := ⟨.hbm, 119, rfl⟩
abbrev main_call7_cst : Ref sig .tc := ⟨.hbm, 120, rfl⟩
abbrev main_v81 : Ref sig .tc := ⟨.hbm, 121, rfl⟩
abbrev main_v82 : Ref sig .tc := ⟨.hbm, 122, rfl⟩
abbrev main_cst_14 : Ref sig .tc := ⟨.hbm, 123, rfl⟩
abbrev main_v83 : Ref sig .tc := ⟨.hbm, 124, rfl⟩
abbrev main_call8_cst : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_15 : Ref sig .tc := ⟨.hbm, 129, rfl⟩
abbrev main_v87 : Ref sig .tc := ⟨.hbm, 130, rfl⟩
abbrev main_call9_cst : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_16 : Ref sig .tc := ⟨.hbm, 135, rfl⟩
abbrev main_v91 : Ref sig .tc := ⟨.hbm, 136, rfl⟩
abbrev main_call10_cst : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_17 : Ref sig .tc := ⟨.hbm, 141, rfl⟩
abbrev main_v95 : Ref sig .tc := ⟨.hbm, 142, rfl⟩
abbrev main_call11_cst : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_v99 : Ref sig .tc := ⟨.hbm, 148, rfl⟩
abbrev main_call12_cst : Ref sig .tc := ⟨.hbm, 149, rfl⟩
abbrev main_v100 : Ref sig .tc := ⟨.hbm, 150, rfl⟩
abbrev main_v101 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S262144 : S_.BroadcastsInDim S262144 (![] : Fin 0 → Fin S262144.rank)
  natLt_1_32 : 1 < 32
  reducesTo_S262144_S_d0 : S262144.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0
  shapeCasts_S262144_S1x262144 : S262144.ShapeCasts S1x262144
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  bitsLt_bf16_f32 : FTy.bits .bf16 < FTy.bits .f32
  concatenates_S1x8192_S1x8192_S1x8192_S1x8192_S4x8192_d0 : Shape.Concatenates [S1x8192, S1x8192, S1x8192, S1x8192] S4x8192 0
  inb_S8192x256_S8192x256_0_0 : ∀ a, (![0, 0] : Fin 2 → Nat) a + S8192x256.size a ≤ S8192x256.size a
  h_S8192x256 : 0 < S8192x256.numel
  reducesTo_S2x4x256_S4x256_d0 : S2x4x256.ReducesTo [0] S4x256
  bcast_S4_S4x1_0 : S4.BroadcastsInDim S4x1 (![0] : Fin 1 → Fin S4x1.rank)
  bcast_S_S4x1 : S_.BroadcastsInDim S4x1 (![] : Fin 0 → Fin S4x1.rank)
  bcast_S_S4 : S_.BroadcastsInDim S4 (![] : Fin 0 → Fin S4.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  slices_S4x256_S1x256_0_0 : S4x256.Slices ![0, 0] S1x256
  shapeCasts_S1x256_S256 : S1x256.ShapeCasts S256
  slices_S4x256_S1x256_1_0 : S4x256.Slices ![1, 0] S1x256
  reducesTo_S256_S_d0 : S256.ReducesTo [0] S_
  slices_S4x256_S1x256_2_0 : S4x256.Slices ![2, 0] S1x256
  slices_S4x256_S1x256_3_0 : S4x256.Slices ![3, 0] S1x256
  dot_S4x8192_S8192x256_S4x256_1_0_0_1_n_n_wf : DotDims.WF S4x8192 S8192x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x262144.size a
  hwx0_1 : ∀ i : grid0.Coords, EltTy.bits .f32 = 32 ∨ (Rect.block (s := S1x262144) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S2x4x256.size a
  hwx0_2 : ∀ i : grid0.Coords, EltTy.bits .f32 = 32 ∨ (Rect.block (s := S2x4x256) S1x4x256.size (cc0_transform_2 i) (hinb0_2 i)).WholeWords (EltTy.packing .f32)

variable [Facts₀]

def dot_S4x8192_S8192x256_S4x256_1_0_0_1_n_n : DotDims S4x8192 S8192x256 S4x256 where
  lhsContracting := [1]
  rhsContracting := [0]
  lhsNonContracting := [0]
  rhsNonContracting := [1]
  lhsBatch := []
  rhsBatch := []
  wf := dot_S4x8192_S8192x256_S4x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S1x262144 : Shape := ⟨2, ![1, 262144]⟩
abbrev S4x262144 : Shape := ⟨2, ![4, 262144]⟩
abbrev S4 : Shape := ⟨1, ![4]⟩
abbrev S4x256 : Shape := ⟨2, ![4, 256]⟩
abbrev S4x1 : Shape := ⟨2, ![4, 1]⟩
abbrev S1x256 : Shape := ⟨2, ![1, 256]⟩
abbrev S256 : Shape := ⟨1, ![256]⟩

abbrev nBuf : Space → Nat
  | .hbm => 139
  | .vmem => 0
  | .smem => 0
  | _ => 0

abbrev hbmTy0_0 (i : Nat) : BufTy := match i % 128 with
  | 0 => ⟨S262144x256, .f32⟩
  | 1 => ⟨S262144, .f32⟩
  | 2 => ⟨S_, .f32⟩
  | 3 => ⟨S262144, .f32⟩
  | 4 => ⟨S262144, .i1⟩
  | 5 => ⟨S_, .f32⟩
  | 6 => ⟨S262144, .f32⟩
  | 7 => ⟨S262144, .i1⟩
  | 8 => ⟨S_, .f32⟩
  | 9 => ⟨S262144, .f32⟩
  | 10 => ⟨S262144, .i1⟩
  | 11 => ⟨S262144, .i1⟩
  | 12 => ⟨S_, .f32⟩
  | 13 => ⟨S262144, .f32⟩
  | 14 => ⟨S262144, .i1⟩
  | 15 => ⟨S_, .f32⟩
  | 16 => ⟨S262144, .f32⟩
  | 17 => ⟨S262144, .i1⟩
  | 18 => ⟨S262144, .i1⟩
  | 19 => ⟨S_, .f32⟩
  | 20 => ⟨S262144, .f32⟩
  | 21 => ⟨S262144, .i1⟩
  | 22 => ⟨S_, .f32⟩
  | 23 => ⟨S262144, .f32⟩
  | 24 => ⟨S262144, .i1⟩
  | 25 => ⟨S262144, .i1⟩
  | 26 => ⟨S1x262144, .i1⟩
  | 27 => ⟨S1x262144, .i1⟩
  | 28 => ⟨S1x262144, .i1⟩
  | 29 => ⟨S1x262144, .i1⟩
  | 30 => ⟨S4x262144, .i1⟩
  | 31 => ⟨S4x262144, .f32⟩
  | 32 => ⟨S_, .f32⟩
  | 33 => ⟨S4, .f32⟩
  | 34 => ⟨S4x256, .f32⟩
  | 35 => ⟨S4x1, .f32⟩
  | 36 => ⟨S_, .f32⟩
  | 37 => ⟨S4x1, .f32⟩
  | 38 => ⟨S4x1, .i1⟩
  | 39 => ⟨S_, .f32⟩
  | 40 => ⟨S4, .f32⟩
  | 41 => ⟨S4, .f32⟩
  | 42 => ⟨S4x1, .f32⟩
  | 43 => ⟨S4x256, .f32⟩
  | 44 => ⟨S4x256, .f32⟩
  | 45 => ⟨S_, .f32⟩
  | 46 => ⟨S_, .f32⟩
  | 47 => ⟨S4x256, .i1⟩
  | 48 => ⟨S4x256, .f32⟩
  | 49 => ⟨S4x256, .f32⟩
  | 50 => ⟨S1x256, .f32⟩
  | 51 => ⟨S256, .f32⟩
  | 52 => ⟨S1x256, .f32⟩
  | 53 => ⟨S256, .f32⟩
  | 54 => ⟨S256, .f32⟩
  | 55 => ⟨S256, .f32⟩
  | 56 => ⟨S_, .f32⟩
  | 57 => ⟨S_, .f32⟩
  | 58 => ⟨S_, .f32⟩
  | 59 => ⟨S1x256, .f32⟩
  | 60 => ⟨S256, .f32⟩
  | 61 => ⟨S1x256, .f32⟩
  | 62 => ⟨S256, .f32⟩
  | 63 => ⟨S256, .f32⟩
  | 64 => ⟨S256, .f32⟩
  | 65 => ⟨S_, .f32⟩
  | 66 => ⟨S_, .f32⟩
  | 67 => ⟨S_, .f32⟩
  | 68 => ⟨S1x256, .f32⟩
  | 69 => ⟨S256, .f32⟩
  | 70 => ⟨S1x256, .f32⟩
  | 71 => ⟨S256, .f32⟩
  | 72 => ⟨S256, .f32⟩
  | 73 => ⟨S256, .f32⟩
  | 74 => ⟨S_, .f32⟩
  | 75 => ⟨S_, .f32⟩
  | 76 => ⟨S_, .f32⟩
  | 77 => ⟨S1x256, .f32⟩
  | 78 => ⟨S256, .f32⟩
  | 79 => ⟨S1x256, .f32⟩
  | 80 => ⟨S256, .f32⟩
  | 81 => ⟨S256, .f32⟩
  | 82 => ⟨S256, .f32⟩
  | 83 => ⟨S_, .f32⟩
  | 84 => ⟨S_, .f32⟩
  | 85 => ⟨S_, .f32⟩
  | 86 => ⟨S1x256, .f32⟩
  | 87 => ⟨S256, .f32⟩
  | 88 => ⟨S1x256, .f32⟩
  | 89 => ⟨S256, .f32⟩
  | 90 => ⟨S256, .f32⟩
  | 91 => ⟨S256, .f32⟩
  | 92 => ⟨S_, .f32⟩
  | 93 => ⟨S_, .f32⟩
  | 94 => ⟨S_, .f32⟩
  | 95 => ⟨S1x256, .f32⟩
  | 96 => ⟨S256, .f32⟩
  | 97 => ⟨S1x256, .f32⟩
  | 98 => ⟨S256, .f32⟩
  | 99 => ⟨S256, .f32⟩
  | 100 => ⟨S256, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_v0 : Ref sig .tc := ⟨.hbm, 64, rfl⟩
abbrev main_call2_cst : Ref sig .tc := ⟨.hbm, 65, rfl⟩
abbrev main_call2_v1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call6_v0 : Ref sig .tc := ⟨.hbm, 100, rfl⟩
abbrev main_call6_cst : Ref sig .tc := ⟨.hbm, 101, rfl⟩
abbrev main_call6_v1 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_call7_cst : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_call8_cst : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_call9_cst : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_call10_cst : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_call11_cst : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_v90 : Ref sig .tc := ⟨.hbm, 135, rfl⟩
abbrev main_call12_cst : Ref sig .tc := ⟨.hbm, 136, rfl⟩
abbrev main_v91 : Ref sig .tc := ⟨.hbm, 137, rfl⟩
abbrev main_v92 : Ref sig .tc := ⟨.hbm, 138, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S1x262144_1 : S262144.BroadcastsInDim S1x262144 (![1] : Fin 1 → Fin S1x262144.rank)
  concatenates_S1x262144_S1x262144_S1x262144_S1x262144_S4x262144_d0 : Shape.Concatenates [S1x262144, S1x262144, S1x262144, S1x262144] S4x262144 0
  reducesTo_S4x262144_S4_d1 : S4x262144.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S_S4 : S_.BroadcastsInDim S4 (![] : Fin 0 → Fin S4.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  slices_S4x256_S1x256_0_0 : S4x256.Slices ![0, 0] S1x256
  shapeCasts_S1x256_S256 : S1x256.ShapeCasts S256
  slices_S4x256_S1x256_1_0 : S4x256.Slices ![1, 0] S1x256
  reducesTo_S256_S_d0 : S256.ReducesTo [0] S_
  slices_S4x256_S1x256_2_0 : S4x256.Slices ![2, 0] S1x256
  slices_S4x256_S1x256_3_0 : S4x256.Slices ![3, 0] S1x256
  dot_S4x262144_S262144x256_S4x256_1_0_0_1_n_n_wf : DotDims.WF S4x262144 S262144x256 S4x256 [1] [0] [0] [1] [] []

variable [Facts₀]

def dot_S4x262144_S262144x256_S4x256_1_0_0_1_n_n : DotDims S4x262144 S262144x256 S4x256 where
  lhsContracting := [1]
  rhsContracting := [0]
  lhsNonContracting := [0]
  rhsNonContracting := [1]
  lhsBatch := []
  rhsBatch := []
  wf := dot_S4x262144_S262144x256_S4x256_1_0_0_1_n_n_wf

class Facts : Prop extends Facts₀ where

variable [Facts]
-- ==== Proof.FrameBits.Around.lean ====
/-
  The launch side of the kernel's run: the host lines before the call, the grid of 2 × 16 points, and the host lines
  after it.

  Before the call the host computes the four group counts and reshapes the targets to one row; the call walks
  the grid p = 0, 1 (the two halves of the rows) and k = 0 … 15 (the 8192-row tiles of a half), fetching a
  feature tile and a target tile at every point and writing the 4 × 256 accumulator block p back after its last
  tile (the points with k = 15); after the call the host adds the two blocks and computes the loss. Stated
  here: the buffer contents when the call is entered, that the later lines touch no array of the call except to
  read, the tiles as the call finds them, and the condition "k = 0" of the accumulator's reset in closed form.
-/
import proofs.«100966_j32263794327816_2_alg».proof.Proof.Gen.Kernel.Launch
import proofs.«100966_j32263794327816_2_alg».proof.Proof.Gen.Kernel.Skeleton
import proofs.«100966_j32263794327816_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The host lines after the call, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

/-- A core's buffer contents when the call is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

/-- The program is the earlier lines, the call, the later lines: it reduces to the call continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop

/-- Each later line writes its own result buffer only, which is none of the call's three arrays. -/
theorem hostOps1_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl | rfl | rfl | rfl | rfl | rfl | rfl | rfl | rfl | rfl | rfl | rfl
  all_goals (fin_cases w <;> exact fun h => absurd (Finset.mem_singleton.mp h) (StableHlo.devRef_ne_of_ne (by decide)))
theorem hostOps1_1_keeps : ∀ op ∈ (hostOps1_1 : List (HloOp τ sig (Elt F))), ∀ w, Proc.devRef .tc (Pipeline.arrRef spec0 w) ∉ op.writes := by
  intro op hop w
  simp only [hostOps1_1, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_2_keeps : ∀ op ∈ (hostOps1_2 : List (HloOp τ sig (Elt F))), ∀ w, Proc.devRef .tc (Pipeline.arrRef spec0 w) ∉ op.writes := by
  intro op hop w
  simp only [hostOps1_2, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_3_keeps : ∀ op ∈ (hostOps1_3 : List (HloOp τ sig (Elt F))), ∀ w, Proc.devRef .tc (Pipeline.arrRef spec0 w) ∉ op.writes := by
  intro op hop w
  simp only [hostOps1_3, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_4_keeps : ∀ op ∈ (hostOps1_4 : List (HloOp τ sig (Elt F))), ∀ w, Proc.devRef .tc (Pipeline.arrRef spec0 w) ∉ op.writes := by
  intro op hop w
  simp only [hostOps1_4, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_5_keeps : ∀ op ∈ (hostOps1_5 : List (HloOp τ sig (Elt F))), ∀ w, Proc.devRef .tc (Pipeline.arrRef spec0 w) ∉ op.writes := by
  intro op hop w
  simp only [hostOps1_5, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_6_keeps : ∀ op ∈ (hostOps1_6 : List (HloOp τ sig (Elt F))), ∀ w, Proc.devRef .tc (Pipeline.arrRef spec0 w) ∉ op.writes := by
  intro op hop w
  simp only [hostOps1_6, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_7_keeps : ∀ op ∈ (hostOps1_7 : List (HloOp τ sig (Elt F))), ∀ w, Proc.devRef .tc (Pipeline.arrRef spec0 w) ∉ op.writes := by
  intro op hop w
  simp only [hostOps1_7, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_8_keeps : ∀ op ∈ (hostOps1_8 : List (HloOp τ sig (Elt F))), ∀ w, Proc.devRef .tc (Pipeline.arrRef spec0 w) ∉ op.writes := by
  intro op hop w
  simp only [hostOps1_8, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_9_keeps : ∀ op ∈ (hostOps1_9 : List (HloOp τ sig (Elt F))), ∀ w, Proc.devRef .tc (Pipeline.arrRef spec0 w) ∉ op.writes := by
  intro op hop w
  simp only [hostOps1_9, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_10_keeps : ∀ op ∈ (hostOps1_10 : List (HloOp τ sig (Elt F))), ∀ w, Proc.devRef .tc (Pipeline.arrRef spec0 w) ∉ op.writes := by
  intro op hop w
  simp only [hostOps1_10, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_11_keeps : ∀ op ∈ (hostOps1_11 : List (HloOp τ sig (Elt F))), ∀ w, Proc.devRef .tc (Pipeline.arrRef spec0 w) ∉ op.writes := by
  intro op hop w
  simp only [hostOps1_11, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_12_keeps : ∀ op ∈ (hostOps1_12 : List (HloOp τ sig (Elt F))), ∀ w, Proc.devRef .tc (Pipeline.arrRef spec0 w) ∉ op.writes := by
  intro op hop w
  simp only [hostOps1_12, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_13_keeps : ∀ op ∈ (hostOps1_13 : List (HloOp τ sig (Elt F))), ∀ w, Proc.devRef .tc (Pipeline.arrRef spec0 w) ∉ op.writes := by
  intro op hop w
  simp only [hostOps1_13, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_14_keeps : ∀ op ∈ (hostOps1_14 : List (HloOp τ sig (Elt F))), ∀ w, Proc.devRef .tc (Pipeline.arrRef spec0 w) ∉ op.writes := by
  intro op hop w
  simp only [hostOps1_14, List.mem_cons, List.mem_nil_iff, or_false] at hop
  rcases hop with rfl | rfl | rfl
  all_goals (fin_cases w <;> exact fun h => absurd (Finset.mem_singleton.mp h) (StableHlo.devRef_ne_of_ne (by decide)))
theorem hostOps1_15_keeps : ∀ op ∈ (hostOps1_15 : List (HloOp τ sig (Elt F))), ∀ w, Proc.devRef .tc (Pipeline.arrRef spec0 w) ∉ op.writes := by
  intro op hop w
  simp only [hostOps1_15, List.mem_cons, List.mem_nil_iff, or_false] at hop
  rcases hop with rfl | rfl
  all_goals (fin_cases w <;> exact fun h => absurd (Finset.mem_singleton.mp h) (StableHlo.devRef_ne_of_ne (by decide)))
theorem hostOps1_16_keeps : ∀ op ∈ (hostOps1_16 : List (HloOp τ sig (Elt F))), ∀ w, Proc.devRef .tc (Pipeline.arrRef spec0 w) ∉ op.writes := by
  intro op hop w
  simp only [hostOps1_16, List.mem_cons, List.mem_nil_iff, or_false] at hop
  rcases hop with rfl | rfl | rfl
  all_goals (fin_cases w <;> exact fun h => absurd (Finset.mem_singleton.mp h) (StableHlo.devRef_ne_of_ne (by decide)))
theorem hostOps1_17_keeps : ∀ op ∈ (hostOps1_17 : List (HloOp τ sig (Elt F))), ∀ w, Proc.devRef .tc (Pipeline.arrRef spec0 w) ∉ op.writes := by
  intro op hop w
  simp only [hostOps1_17, List.mem_cons, List.mem_nil_iff, or_false] at hop
  rcases hop with rfl | rfl
  all_goals (fin_cases w <;> exact fun h => absurd (Finset.mem_singleton.mp h) (StableHlo.devRef_ne_of_ne (by decide)))
theorem hostOps1_18_keeps : ∀ op ∈ (hostOps1_18 : List (HloOp τ sig (Elt F))), ∀ w, Proc.devRef .tc (Pipeline.arrRef spec0 w) ∉ op.writes := by
  intro op hop w
  simp only [hostOps1_18, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_19_keeps : ∀ op ∈ (hostOps1_19 : List (HloOp τ sig (Elt F))), ∀ w, Proc.devRef .tc (Pipeline.arrRef spec0 w) ∉ op.writes := by
  intro op hop w
  simp only [hostOps1_19, List.mem_cons, List.mem_nil_iff, or_false] at hop
  rcases hop with rfl | rfl
  all_goals (fin_cases w <;> exact fun h => absurd (Finset.mem_singleton.mp h) (StableHlo.devRef_ne_of_ne (by decide)))
theorem hostOps1_20_keeps : ∀ op ∈ (hostOps1_20 : List (HloOp τ sig (Elt F))), ∀ w, Proc.devRef .tc (Pipeline.arrRef spec0 w) ∉ op.writes := by
  intro op hop w
  simp only [hostOps1_20, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_21_keeps : ∀ op ∈ (hostOps1_21 : List (HloOp τ sig (Elt F))), ∀ w, Proc.devRef .tc (Pipeline.arrRef spec0 w) ∉ op.writes := by
  intro op hop w
  simp only [hostOps1_21, List.mem_cons, List.mem_nil_iff, or_false] at hop
  rcases hop with rfl | rfl
  all_goals (fin_cases w <;> exact fun h => absurd (Finset.mem_singleton.mp h) (StableHlo.devRef_ne_of_ne (by decide)))
theorem hostOps1_22_keeps : ∀ op ∈ (hostOps1_22 : List (HloOp τ sig (Elt F))), ∀ w, Proc.devRef .tc (Pipeline.arrRef spec0 w) ∉ op.writes := by
  intro op hop w
  simp only [hostOps1_22, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_23_keeps : ∀ op ∈ (hostOps1_23 : List (HloOp τ sig (Elt F))), ∀ w, Proc.devRef .tc (Pipeline.arrRef spec0 w) ∉ op.writes := by
  intro op hop w
  simp only [hostOps1_23, List.mem_cons, List.mem_nil_iff, or_false] at hop
  rcases hop with rfl | rfl
  all_goals (fin_cases w <;> exact fun h => absurd (Finset.mem_singleton.mp h) (StableHlo.devRef_ne_of_ne (by decide)))
theorem hostOps1_24_keeps : ∀ op ∈ (hostOps1_24 : List (HloOp τ sig (Elt F))), ∀ w, Proc.devRef .tc (Pipeline.arrRef spec0 w) ∉ op.writes := by
  intro op hop w
  simp only [hostOps1_24, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_25_keeps : ∀ op ∈ (hostOps1_25 : List (HloOp τ sig (Elt F))), ∀ w, Proc.devRef .tc (Pipeline.arrRef spec0 w) ∉ op.writes := by
  intro op hop w
  simp only [hostOps1_25, List.mem_cons, List.mem_nil_iff, or_false] at hop
  rcases hop with rfl | rfl
  all_goals (fin_cases w <;> exact fun h => absurd (Finset.mem_singleton.mp h) (StableHlo.devRef_ne_of_ne (by decide)))
theorem hostOps1_26_keeps : ∀ op ∈ (hostOps1_26 : List (HloOp τ sig (Elt F))), ∀ w, Proc.devRef .tc (Pipeline.arrRef spec0 w) ∉ op.writes := by
  intro op hop w
  simp only [hostOps1_26, List.mem_cons, List.mem_nil_iff, or_false] at hop
  rcases hop with rfl
  all_goals (fin_cases w <;> exact fun h => absurd (Finset.mem_singleton.mp h) (StableHlo.devRef_ne_of_ne (by decide)))

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop
  · exact hostOps1_21_keeps op hop
  · exact hostOps1_22_keeps op hop
  · exact hostOps1_23_keeps op hop
  · exact hostOps1_24_keeps op hop
  · exact hostOps1_25_keeps op hop
  · exact hostOps1_26_keeps op hop

/-! ## The tiles -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature tile's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The target tile's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's branch, from the grid coordinates: "k = 0". -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of the accumulator window, through which its contents are stated. -/
abbrev VO0_2 : View sig .tc .vmem S1x4x256 .f32 := (Memref.whole cc0_stg2_0 : Memref sig .tc .vmem S1x4x256 .f32).view
/-- Each window's current staging memref at point `t`, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)

end Cert.Kernel.Frm

end
-- ==== Proof.FrameBits.RunA.lean ====
/-
  The body at a point with k = 0 (the first tile of a half): the accumulator block is set to zero and the tile's
  partial sums are added to it. Run on any whole staging memrefs — the two tiles at their contents, the
  accumulator's at anything — the body ends holding the tiles as they were and the accumulator's buffer with the
  pieces its stores wrote; the list of pieces is found by the run.
-/
import proofs.«100966_j32263794327816_2_alg».proof.Proof.FrameBits.Around

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's buffer at a point with k = 0, with the body's triple. -/
noncomputable def kernelRun0_A (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.FrameBits.RunB.lean ====
/-
  The body at a point with k > 0: the tile's partial sums are added to the accumulator block the point before
  left. Run on any whole staging memrefs — the two tiles at their contents, the accumulator's at its running
  contents — the body ends holding the tiles as they were and the accumulator's buffer with the piece its store
  wrote; the list of pieces is found by the run.
-/
import proofs.«100966_j32263794327816_2_alg».proof.Proof.FrameBits.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the accumulator's buffer at a point with k > 0, with the body's triple. -/
noncomputable def kernelRun0_B (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.FrameBits.Frame.lean ====
/-
  The run of the kernel's program: what the accumulator block holds after each grid point, the body at every point, and the
  whole run with its host lines.

  After a point with k = 0 the accumulator's buffer holds zero plus the tile's partial sums; after a point with
  k > 0 it holds what the point before left plus the tile's partial sums (the buffer is not written back between,
  that happening after k = 15 only). With these contents as the proof data the body's triple holds at every point,
  and the launch theorem for a call between host lines gives the run: the program terminates without a fault,
  each array of the call ends at what the write-backs put there, and every other buffer at what the host lines
  computed from that.
-/
import proofs.«100966_j32263794327816_2_alg».proof.Proof.FrameBits.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of a point with k = 0 cover the block (two whole-block stores). -/
theorem cover0_A_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) (y : S1x4x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x256.size (by sl_kernel_rfl) y

/-- What a point with k = 0 leaves in the accumulator's buffer. -/
def out0_A_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) : Vec F S1x4x256 .f32 :=
  VO0_2.read (Elt F) (VO0_2.writes (Elt F) VO0_2.junk (kernelRun0_A c i arg2 harg2 arg3 harg3 arg4 harg4 hc0 x0 x1).1)

/-- The piece of a point with k > 0 covers the block (one whole-block store). -/
theorem cover0_B_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) (y : S1x4x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x256.size (by sl_kernel_rfl) y

/-- What a point with k > 0 leaves in the accumulator's buffer. -/
def out0_B_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) : Vec F S1x4x256 .f32 :=
  VO0_2.read (Elt F) (VO0_2.writes (Elt F) VO0_2.junk (kernelRun0_B c i arg2 harg2 arg3 harg3 arg4 harg4 hc0 x0 x1 xo2).1)

/-! ## What the accumulator holds after each point -/

/-- The accumulator's buffer after the body at position `n`: at k = 0 the reset-and-add contents, elsewhere the
    add over what position `n - 1` left. -/
def outsAt0 (c : Dev nD) : (n : ℕ) → n < cfg0.N → Vec F S1x4x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point with k = 0. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point with k > 0. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the call finds them; after the body at point `t` each tile's buffer at its block and the
    accumulator's at `outsAt0`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with k > 0 the accumulator's buffer holds what the body left at the point before. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the tiles' memrefs hold their blocks; the closed form says whether k = 0; at k > 0 the
    accumulator's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; each array of the call ends at what the
    write-backs put there and every other unscoped buffer at what the host lines computed. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Frm

end
-- ==== Proof.FrameBits.Args.lean ====
/-
  The argument arrays after the run: unchanged.

  The feature matrix is the array of the call's first window, which is only read: after the call it holds what it
  held at entry, and no host line writes it. The target vector is staged by no window (the call reads its reshaped
  copy): no host line writes it either. So both end at their launch contents — the frame claim.
-/
import proofs.«100966_j32263794327816_2_alg».proof.Proof.FrameBits.Frame
import Idealize.ShloMosaic.Lib.StableHlo.Run

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- No host line before the call writes the feature matrix. -/
theorem V_main_arg0 (c : Dev nD) : V m c main_arg0 = m ((c : Thread nD τ).loc main_arg0) := by
  show StableHlo.after hostOps0 (fun b => m (c, b)) (Proc.devRef .tc main_arg0) = _
  after_results_simp

open Idealize.ShloMosaic.StableHlo in
/-- No host line before the call writes the target vector. -/
theorem V_main_arg1 (c : Dev nD) : V m c main_arg1 = m ((c : Thread nD τ).loc main_arg1) := by
  show StableHlo.after hostOps0 (fun b => m (c, b)) (Proc.devRef .tc main_arg1) = _
  after_results_simp

open Idealize.ShloMosaic.StableHlo in
/-- Nor does any host line after it. -/
theorem tail_main_arg1 (c : Dev nD) :
    Pipeline.afterTail₀ cfgs (dats m) 0 (V0 m) tailOps c main_arg1 = m ((c : Thread nD τ).loc main_arg1) := by
  unfold Pipeline.afterTail₀
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, List.flatten_cons, List.flatten_nil, List.append_nil, List.cons_append, List.nil_append]
  after_results_simp
  rw [Pipeline.withArrays_of_ne spec0 c (V0 m c) _ main_arg1 (by decide)]
  exact V_main_arg1 m c

/-- THE FRAME: the program terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (by decide)).trans (tail_main_arg1 m c)⟩) (run_main m ρ)

end Cert.Kernel.Frm

end
-- ==== Proof.FrameIdeal.Around.lean ====
/-
  The launch side of the idealized kernel's run: the host lines before the call, the grid of 2 × 16 points, and the host lines
  after it.

  Before the call the host computes the four group counts and reshapes the targets to one row; the call walks
  the grid p = 0, 1 (the two halves of the rows) and k = 0 … 15 (the 8192-row tiles of a half), fetching a
  feature tile and a target tile at every point and writing the 4 × 256 accumulator block p back after its last
  tile (the points with k = 15); after the call the host adds the two blocks and computes the loss. Stated
  here: the buffer contents when the call is entered, that the later lines touch no array of the call except to
  read, the tiles as the call finds them, and the condition "k = 0" of the accumulator's reset in closed form.
-/
import proofs.«100966_j32263794327816_2_alg».proof.Proof.Gen.KernelIdeal.Launch
import proofs.«100966_j32263794327816_2_alg».proof.Proof.Gen.KernelIdeal.Skeleton
import proofs.«100966_j32263794327816_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The host lines after the call, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

/-- A core's buffer contents when the call is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

/-- The program is the earlier lines, the call, the later lines: it reduces to the call continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop

/-- Each later line writes its own result buffer only, which is none of the call's three arrays. -/
theorem hostOps1_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl | rfl | rfl | rfl | rfl | rfl | rfl | rfl | rfl | rfl | rfl | rfl
  all_goals (fin_cases w <;> exact fun h => absurd (Finset.mem_singleton.mp h) (StableHlo.devRef_ne_of_ne (by decide)))
theorem hostOps1_1_keeps : ∀ op ∈ (hostOps1_1 : List (HloOp τ sig (Elt F))), ∀ w, Proc.devRef .tc (Pipeline.arrRef spec0 w) ∉ op.writes := by
  intro op hop w
  simp only [hostOps1_1, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_2_keeps : ∀ op ∈ (hostOps1_2 : List (HloOp τ sig (Elt F))), ∀ w, Proc.devRef .tc (Pipeline.arrRef spec0 w) ∉ op.writes := by
  intro op hop w
  simp only [hostOps1_2, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_3_keeps : ∀ op ∈ (hostOps1_3 : List (HloOp τ sig (Elt F))), ∀ w, Proc.devRef .tc (Pipeline.arrRef spec0 w) ∉ op.writes := by
  intro op hop w
  simp only [hostOps1_3, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_4_keeps : ∀ op ∈ (hostOps1_4 : List (HloOp τ sig (Elt F))), ∀ w, Proc.devRef .tc (Pipeline.arrRef spec0 w) ∉ op.writes := by
  intro op hop w
  simp only [hostOps1_4, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_5_keeps : ∀ op ∈ (hostOps1_5 : List (HloOp τ sig (Elt F))), ∀ w, Proc.devRef .tc (Pipeline.arrRef spec0 w) ∉ op.writes := by
  intro op hop w
  simp only [hostOps1_5, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_6_keeps : ∀ op ∈ (hostOps1_6 : List (HloOp τ sig (Elt F))), ∀ w, Proc.devRef .tc (Pipeline.arrRef spec0 w) ∉ op.writes := by
  intro op hop w
  simp only [hostOps1_6, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_7_keeps : ∀ op ∈ (hostOps1_7 : List (HloOp τ sig (Elt F))), ∀ w, Proc.devRef .tc (Pipeline.arrRef spec0 w) ∉ op.writes := by
  intro op hop w
  simp only [hostOps1_7, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_8_keeps : ∀ op ∈ (hostOps1_8 : List (HloOp τ sig (Elt F))), ∀ w, Proc.devRef .tc (Pipeline.arrRef spec0 w) ∉ op.writes := by
  intro op hop w
  simp only [hostOps1_8, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_9_keeps : ∀ op ∈ (hostOps1_9 : List (HloOp τ sig (Elt F))), ∀ w, Proc.devRef .tc (Pipeline.arrRef spec0 w) ∉ op.writes := by
  intro op hop w
  simp only [hostOps1_9, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_10_keeps : ∀ op ∈ (hostOps1_10 : List (HloOp τ sig (Elt F))), ∀ w, Proc.devRef .tc (Pipeline.arrRef spec0 w) ∉ op.writes := by
  intro op hop w
  simp only [hostOps1_10, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_11_keeps : ∀ op ∈ (hostOps1_11 : List (HloOp τ sig (Elt F))), ∀ w, Proc.devRef .tc (Pipeline.arrRef spec0 w) ∉ op.writes := by
  intro op hop w
  simp only [hostOps1_11, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_12_keeps : ∀ op ∈ (hostOps1_12 : List (HloOp τ sig (Elt F))), ∀ w, Proc.devRef .tc (Pipeline.arrRef spec0 w) ∉ op.writes := by
  intro op hop w
  simp only [hostOps1_12, List.mem_cons, List.mem_nil_iff, or_false] at hop
  rcases hop with rfl | rfl | rfl | rfl | rfl
  all_goals (fin_cases w <;> exact fun h => absurd (Finset.mem_singleton.mp h) (StableHlo.devRef_ne_of_ne (by decide)))
theorem hostOps1_13_keeps : ∀ op ∈ (hostOps1_13 : List (HloOp τ sig (Elt F))), ∀ w, Proc.devRef .tc (Pipeline.arrRef spec0 w) ∉ op.writes := by
  intro op hop w
  simp only [hostOps1_13, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_14_keeps : ∀ op ∈ (hostOps1_14 : List (HloOp τ sig (Elt F))), ∀ w, Proc.devRef .tc (Pipeline.arrRef spec0 w) ∉ op.writes := by
  intro op hop w
  simp only [hostOps1_14, List.mem_cons, List.mem_nil_iff, or_false] at hop
  rcases hop with rfl | rfl | rfl
  all_goals (fin_cases w <;> exact fun h => absurd (Finset.mem_singleton.mp h) (StableHlo.devRef_ne_of_ne (by decide)))
theorem hostOps1_15_keeps : ∀ op ∈ (hostOps1_15 : List (HloOp τ sig (Elt F))), ∀ w, Proc.devRef .tc (Pipeline.arrRef spec0 w) ∉ op.writes := by
  intro op hop w
  simp only [hostOps1_15, List.mem_cons, List.mem_nil_iff, or_false] at hop
  rcases hop with rfl | rfl
  all_goals (fin_cases w <;> exact fun h => absurd (Finset.mem_singleton.mp h) (StableHlo.devRef_ne_of_ne (by decide)))
theorem hostOps1_16_keeps : ∀ op ∈ (hostOps1_16 : List (HloOp τ sig (Elt F))), ∀ w, Proc.devRef .tc (Pipeline.arrRef spec0 w) ∉ op.writes := by
  intro op hop w
  simp only [hostOps1_16, List.mem_cons, List.mem_nil_iff, or_false] at hop
  rcases hop with rfl | rfl | rfl
  all_goals (fin_cases w <;> exact fun h => absurd (Finset.mem_singleton.mp h) (StableHlo.devRef_ne_of_ne (by decide)))
theorem hostOps1_17_keeps : ∀ op ∈ (hostOps1_17 : List (HloOp τ sig (Elt F))), ∀ w, Proc.devRef .tc (Pipeline.arrRef spec0 w) ∉ op.writes := by
  intro op hop w
  simp only [hostOps1_17, List.mem_cons, List.mem_nil_iff, or_false] at hop
  rcases hop with rfl | rfl
  all_goals (fin_cases w <;> exact fun h => absurd (Finset.mem_singleton.mp h) (StableHlo.devRef_ne_of_ne (by decide)))
theorem hostOps1_18_keeps : ∀ op ∈ (hostOps1_18 : List (HloOp τ sig (Elt F))), ∀ w, Proc.devRef .tc (Pipeline.arrRef spec0 w) ∉ op.writes := by
  intro op hop w
  simp only [hostOps1_18, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_19_keeps : ∀ op ∈ (hostOps1_19 : List (HloOp τ sig (Elt F))), ∀ w, Proc.devRef .tc (Pipeline.arrRef spec0 w) ∉ op.writes := by
  intro op hop w
  simp only [hostOps1_19, List.mem_cons, List.mem_nil_iff, or_false] at hop
  rcases hop with rfl | rfl
  all_goals (fin_cases w <;> exact fun h => absurd (Finset.mem_singleton.mp h) (StableHlo.devRef_ne_of_ne (by decide)))
theorem hostOps1_20_keeps : ∀ op ∈ (hostOps1_20 : List (HloOp τ sig (Elt F))), ∀ w, Proc.devRef .tc (Pipeline.arrRef spec0 w) ∉ op.writes := by
  intro op hop w
  simp only [hostOps1_20, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_21_keeps : ∀ op ∈ (hostOps1_21 : List (HloOp τ sig (Elt F))), ∀ w, Proc.devRef .tc (Pipeline.arrRef spec0 w) ∉ op.writes := by
  intro op hop w
  simp only [hostOps1_21, List.mem_cons, List.mem_nil_iff, or_false] at hop
  rcases hop with rfl | rfl
  all_goals (fin_cases w <;> exact fun h => absurd (Finset.mem_singleton.mp h) (StableHlo.devRef_ne_of_ne (by decide)))
theorem hostOps1_22_keeps : ∀ op ∈ (hostOps1_22 : List (HloOp τ sig (Elt F))), ∀ w, Proc.devRef .tc (Pipeline.arrRef spec0 w) ∉ op.writes := by
  intro op hop w
  simp only [hostOps1_22, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_23_keeps : ∀ op ∈ (hostOps1_23 : List (HloOp τ sig (Elt F))), ∀ w, Proc.devRef .tc (Pipeline.arrRef spec0 w) ∉ op.writes := by
  intro op hop w
  simp only [hostOps1_23, List.mem_cons, List.mem_nil_iff, or_false] at hop
  rcases hop with rfl | rfl
  all_goals (fin_cases w <;> exact fun h => absurd (Finset.mem_singleton.mp h) (StableHlo.devRef_ne_of_ne (by decide)))
theorem hostOps1_24_keeps : ∀ op ∈ (hostOps1_24 : List (HloOp τ sig (Elt F))), ∀ w, Proc.devRef .tc (Pipeline.arrRef spec0 w) ∉ op.writes := by
  intro op hop w
  simp only [hostOps1_24, List.mem_cons, List.mem_nil_iff, or_false] at hop
  rcases hop with rfl | rfl | rfl | rfl
  all_goals (fin_cases w <;> exact fun h => absurd (Finset.mem_singleton.mp h) (StableHlo.devRef_ne_of_ne (by decide)))
theorem hostOps1_25_keeps : ∀ op ∈ (hostOps1_25 : List (HloOp τ sig (Elt F))), ∀ w, Proc.devRef .tc (Pipeline.arrRef spec0 w) ∉ op.writes := by
  intro op hop w
  simp only [hostOps1_25, List.mem_cons, List.mem_nil_iff, or_false] at hop
  rcases hop with rfl | rfl
  all_goals (fin_cases w <;> exact fun h => absurd (Finset.mem_singleton.mp h) (StableHlo.devRef_ne_of_ne (by decide)))
theorem hostOps1_26_keeps : ∀ op ∈ (hostOps1_26 : List (HloOp τ sig (Elt F))), ∀ w, Proc.devRef .tc (Pipeline.arrRef spec0 w) ∉ op.writes := by
  intro op hop w
  simp only [hostOps1_26, List.mem_cons, List.mem_nil_iff, or_false] at hop
  rcases hop with rfl
  all_goals (fin_cases w <;> exact fun h => absurd (Finset.mem_singleton.mp h) (StableHlo.devRef_ne_of_ne (by decide)))

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop
  · exact hostOps1_21_keeps op hop
  · exact hostOps1_22_keeps op hop
  · exact hostOps1_23_keeps op hop
  · exact hostOps1_24_keeps op hop
  · exact hostOps1_25_keeps op hop
  · exact hostOps1_26_keeps op hop

/-! ## The tiles -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature tile's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The target tile's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's branch, from the grid coordinates: "k = 0". -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of the accumulator window, through which its contents are stated. -/
abbrev VO0_2 : View sig .tc .vmem S1x4x256 .f32 := (Memref.whole cc0_stg2_0 : Memref sig .tc .vmem S1x4x256 .f32).view
/-- Each window's current staging memref at point `t`, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)

end Cert.KernelIdeal.Frm

end
-- ==== Proof.FrameIdeal.RunA.lean ====
/-
  The body at a point with k = 0 (the first tile of a half): the accumulator block is set to zero and the tile's
  partial sums are added to it. Run on any whole staging memrefs — the two tiles at their contents, the
  accumulator's at anything — the body ends holding the tiles as they were and the accumulator's buffer with the
  pieces its stores wrote; the list of pieces is found by the run.
-/
import proofs.«100966_j32263794327816_2_alg».proof.Proof.FrameIdeal.Around

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator's buffer at a point with k = 0, with the body's triple. -/
noncomputable def kernelRun0_A (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.FrameIdeal.RunB.lean ====
/-
  The body at a point with k > 0: the tile's partial sums are added to the accumulator block the point before
  left. Run on any whole staging memrefs — the two tiles at their contents, the accumulator's at its running
  contents — the body ends holding the tiles as they were and the accumulator's buffer with the piece its store
  wrote; the list of pieces is found by the run.
-/
import proofs.«100966_j32263794327816_2_alg».proof.Proof.FrameIdeal.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the accumulator's buffer at a point with k > 0, with the body's triple. -/
noncomputable def kernelRun0_B (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.FrameIdeal.Frame.lean ====
/-
  The run of the idealized kernel's program: what the accumulator block holds after each grid point, the body at every point, and the
  whole run with its host lines.

  After a point with k = 0 the accumulator's buffer holds zero plus the tile's partial sums; after a point with
  k > 0 it holds what the point before left plus the tile's partial sums (the buffer is not written back between,
  that happening after k = 15 only). With these contents as the proof data the body's triple holds at every point,
  and the launch theorem for a call between host lines gives the run: the program terminates without a fault,
  each array of the call ends at what the write-backs put there, and every other buffer at what the host lines
  computed from that.
-/
import proofs.«100966_j32263794327816_2_alg».proof.Proof.FrameIdeal.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of a point with k = 0 cover the block (two whole-block stores). -/
theorem cover0_A_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) (y : S1x4x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x256.size (by sl_kernel_rfl) y

/-- What a point with k = 0 leaves in the accumulator's buffer. -/
def out0_A_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : cond0_0 i)
    (x0 : Vec F S8192x256 .f32) (x1 : Vec F S1x8192 .f32) : Vec F S1x4x256 .f32 :=
  VO0_2.read (Elt F) (VO0_2.writes (Elt F) VO0_2.junk (kernelRun0_A c i arg2 harg2 arg3 harg3 arg4 harg4 hc0 x0 x1).1)

/-- The piece of a point with k > 0 covers the block (one whole-block store). -/
theorem cover0_B_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) (y : S1x4x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x256.size (by sl_kernel_rfl) y

/-- What a point with k > 0 leaves in the accumulator's buffer. -/
def out0_B_2 (c : Dev nD) (i : grid0.Coords) (arg2 : Memref sig .tc .vmem S8192x256 .f32) (harg2 : arg2.IsWhole)
    (arg3 : Memref sig .tc .vmem S1x8192 .f32) (harg3 : arg3.IsWhole) (arg4 : Memref sig .tc .vmem S1x4x256 .f32) (harg4 : arg4.IsWhole) (hc0 : ¬cond0_0 i)
    (x0 : Vec F S8192x256 .f32) (x1 : Vec F S1x8192 .f32) (xo2 : Vec F S1x4x256 .f32) : Vec F S1x4x256 .f32 :=
  VO0_2.read (Elt F) (VO0_2.writes (Elt F) VO0_2.junk (kernelRun0_B c i arg2 harg2 arg3 harg3 arg4 harg4 hc0 x0 x1 xo2).1)

/-! ## What the accumulator holds after each point -/

/-- The accumulator's buffer after the body at position `n`: at k = 0 the reset-and-add contents, elsewhere the
    add over what position `n - 1` left. -/
def outsAt0 (c : Dev nD) : (n : ℕ) → n < cfg0.N → Vec F S1x4x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point with k = 0. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point with k > 0. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the call finds them; after the body at point `t` each tile's buffer at its block and the
    accumulator's at `outsAt0`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with k > 0 the accumulator's buffer holds what the body left at the point before. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the tiles' memrefs hold their blocks; the closed form says whether k = 0; at k > 0 the
    accumulator's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; each array of the call ends at what the
    write-backs put there and every other unscoped buffer at what the host lines computed. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Frm

end
-- ==== Proof.FrameIdeal.Args.lean ====
/-
  The argument arrays after the run: unchanged.

  The feature matrix is the array of the call's first window, which is only read: after the call it holds what it
  held at entry, and no host line writes it. The target vector is staged by no window (the call reads its reshaped
  copy): no host line writes it either. So both end at their launch contents — the frame claim.
-/
import proofs.«100966_j32263794327816_2_alg».proof.Proof.FrameIdeal.Frame
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- No host line before the call writes the feature matrix. -/
theorem V_main_arg0 (c : Dev nD) : V m c main_arg0 = m ((c : Thread nD τ).loc main_arg0) := by
  show StableHlo.after hostOps0 (fun b => m (c, b)) (Proc.devRef .tc main_arg0) = _
  after_results_simp

open Idealize.ShloMosaic.StableHlo in
/-- No host line before the call writes the target vector. -/
theorem V_main_arg1 (c : Dev nD) : V m c main_arg1 = m ((c : Thread nD τ).loc main_arg1) := by
  show StableHlo.after hostOps0 (fun b => m (c, b)) (Proc.devRef .tc main_arg1) = _
  after_results_simp

open Idealize.ShloMosaic.StableHlo in
/-- Nor does any host line after it. -/
theorem tail_main_arg1 (c : Dev nD) :
    Pipeline.afterTail₀ cfgs (dats m) 0 (V0 m) tailOps c main_arg1 = m ((c : Thread nD τ).loc main_arg1) := by
  unfold Pipeline.afterTail₀
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, List.flatten_cons, List.flatten_nil, List.append_nil, List.cons_append, List.nil_append]
  after_results_simp
  rw [Pipeline.withArrays_of_ne spec0 c (V0 m c) _ main_arg1 (by decide)]
  exact V_main_arg1 m c

/-- THE FRAME: the program terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (by decide)).trans (tail_main_arg1 m c)⟩) (run_main m ρ)

end Cert.KernelIdeal.Frm

end
-- ==== Proof.Groups.lean ====
/-
  The four target groups and their masked sums, as plain functions on the extended reals.

  A row n belongs to group 0 when t n ≤ 0.1, to group 1 when 0.3 < t n ≤ 0.4, to group 2 when 0.6 < t n ≤ 0.7
  and to group 3 when 0.8 < t n ≤ 1.1 (the thresholds are the f32 words the two programs share, never
  evaluated). `bit g x` is the one-bit answer for a target value x, `wt g x` that bit as the extended real
  0 or 1, `countAt t g` the number of rows of group g and `sumAt feat t g d` the sum of column d of the
  feature matrix over the rows of group g.
-/
import Idealize.ShloMosaic.PureOps.Ideal
import Idealize.ShloMosaic.Lib.ValueIdx

noncomputable section

open scoped BigOperators

namespace Cert.Groups

open Idealize.ShloMosaic Idealize.ShloMosaic.ValueIdx

/-- The threshold words. -/
abbrev c01 : EReal := Ideal.ofBits .f32 0x3DCCCCCD#32
abbrev c03 : EReal := Ideal.ofBits .f32 0x3E99999A#32
abbrev c04 : EReal := Ideal.ofBits .f32 0x3ECCCCCD#32
abbrev c06 : EReal := Ideal.ofBits .f32 0x3F19999A#32
abbrev c07 : EReal := Ideal.ofBits .f32 0x3F333333#32
abbrev c08 : EReal := Ideal.ofBits .f32 0x3F4CCCCD#32
abbrev c11 : EReal := Ideal.ofBits .f32 0x3F8CCCCD#32

/-- Membership of a target value in group `g`, as one bit. -/
def bit (g : Fin 4) (x : EReal) : BitVec 1 :=
  match g with
  | 0 => Ideal.cmp .ole x c01
  | 1 => Ideal.cmp .ogt x c03 &&& Ideal.cmp .ole x c04
  | 2 => Ideal.cmp .ogt x c06 &&& Ideal.cmp .ole x c07
  | 3 => Ideal.cmp .ogt x c08 &&& Ideal.cmp .ole x c11

/-- The membership bit as the extended real 0 or 1. -/
def wt (g : Fin 4) (x : EReal) : EReal := (((bit g x).toNat : ℝ) : EReal)

/-- How many rows belong to group `g`. -/
def countAt (t : (⟨1, ![262144]⟩ : Shape).Idx → EReal) (g : Fin 4) : EReal :=
  ∑ n : Fin 262144, wt g (t (ix1 n))

/-- Column `d` of the feature matrix summed over the rows of group `g`. -/
def sumAt (feat : (⟨2, ![262144, 256]⟩ : Shape).Idx → EReal) (t : (⟨1, ![262144]⟩ : Shape).Idx → EReal)
    (g : Fin 4) (d : Fin 256) : EReal :=
  ∑ n : Fin 262144, wt g (t (ix1 n)) * feat (ix2 n d)

/-- The four counts as a vector. -/
def counts (t : (⟨1, ![262144]⟩ : Shape).Idx → EReal) : (⟨1, ![4]⟩ : Shape).Idx → EReal :=
  fun i => countAt t (i 0)

/-- The 4 × 256 group sums as an array. -/
def sums (feat : (⟨2, ![262144, 256]⟩ : Shape).Idx → EReal) (t : (⟨1, ![262144]⟩ : Shape).Idx → EReal) :
    (⟨2, ![4, 256]⟩ : Shape).Idx → EReal :=
  fun i => sumAt feat t (i 0) (i 1)

end Cert.Groups

end
-- ==== Proof.BlockSum.lean ====
/-
  The kernel body's arithmetic read at an index, and one regrouping of a sum over a range.

  One block of the kernel takes a [1, 8192] tile of target values and an [8192, 256] tile of features. From the
  targets it builds the four membership masks as 0/1 values, stacks them into a [4, 8192] matrix and multiplies
  that matrix with the feature tile. At the extended reals every conversion on the way is exact, so entry (g, d)
  of the product is the sum over the rows j of the tile of the membership weight of row j in group g times the
  feature (j, d). The other three values of the body are an addition under a change of shape, a zero array and
  a change of shape.
-/
import proofs.«100966_j32263794327816_2_alg».proof.Proof.Gen.KernelIdeal.Skeleton
import proofs.«100966_j32263794327816_2_alg».proof.Proof.Groups
import Idealize.ShloMosaic.PureOps.Ideal.Laws
import Idealize.ShloMosaic.Lib.ValueIdx
import Idealize.ShloMosaic.Lib.Pipeline.Value

noncomputable section

open scoped BigOperators

namespace Cert.BlockSum

open Idealize.ShloMosaic Idealize.ShloMosaic.ValueIdx Cert.KernelIdeal Cert.KernelIdeal.Gen

/-! ## A sum over a range of a·b numbers, taken in a blocks of b -/

theorem sum_range_blocks {M : Type*} [AddCommMonoid M] (f : ℕ → M) (a b : ℕ) :
    ∑ i ∈ Finset.range (a * b), f i = ∑ p ∈ Finset.range a, ∑ j ∈ Finset.range b, f (p * b + j) := by
  induction a with
  | zero => simp
  | succ a ih =>
    rw [Nat.succ_mul, Finset.sum_range_add, ih, Finset.sum_range_succ]

/-! ## The product of the matrix unit at an index -/

private abbrev D := dot_S4x8192_S8192x256_S4x256_1_0_0_1_n_n

/-- The left operand's index: the output's row and the common coordinate. -/
theorem lhs_0 (i : S4x256.Idx) (q : D.contr.Idx) : (D.lhsIdx i q 0).val = (i 0).val := by
  unfold DotDims.lhsIdx
  rw [dif_neg (show ¬(0 : Fin S4x8192.rank) ∈ D.lhsBatch by decide),
    dif_pos (show (0 : Fin S4x8192.rank) ∈ D.lhsNonContracting by decide)]
  rfl
theorem lhs_1 (i : S4x256.Idx) (q : D.contr.Idx) : (D.lhsIdx i q 1).val = (q ⟨0, by decide⟩).val :=
  D.lhsIdx_val_of_single rfl i q
/-- The right operand's index: the common coordinate and the output's column. -/
theorem rhs_0 (i : S4x256.Idx) (q : D.contr.Idx) : (D.rhsIdx i q 0).val = (q ⟨0, by decide⟩).val :=
  D.rhsIdx_val_of_single rfl i q
theorem rhs_1 (i : S4x256.Idx) (q : D.contr.Idx) : (D.rhsIdx i q 1).val = (i 1).val := by
  unfold DotDims.rhsIdx
  rw [dif_neg (show ¬(1 : Fin S8192x256.rank) ∈ D.rhsBatch by decide),
    dif_pos (show (1 : Fin S8192x256.rank) ∈ D.rhsNonContracting by decide)]
  rfl

/-- The [4, 8192] × [8192, 256] product into a zero accumulator: entry (g, d) is the sum over the 8192 common
    coordinates. -/
theorem matmul_ix (lhs : FVec Ideal S4x8192 .bf16) (rhs : FVec Ideal S8192x256 .bf16) (g : Fin 4) (d : Fin 256) :
    FloatOps.matmul D none lhs rhs (constant S4x256 .f32 0x00000000#32) (ix2 g d)
      = ∑ j : Fin 8192, lhs (ix2 g j) * rhs (ix2 j d) := by
  rw [Ideal.matmul_constant_zero_apply, ← Equiv.sum_comp (contrEquiv1 D 8192 rfl rfl).symm]
  refine Finset.sum_congr rfl fun k _ => ?_
  have hk := contrEquiv1_symm_val D 8192 rfl rfl k
  have el : D.lhsIdx (ix2 g d) ((contrEquiv1 D 8192 rfl rfl).symm k) = ix2 g k :=
    funext fun a => Fin.ext (by
      match a with
      | ⟨0, _⟩ => exact lhs_0 _ _
      | ⟨1, _⟩ => exact (lhs_1 _ _).trans hk)
  have er : D.rhsIdx (ix2 g d) ((contrEquiv1 D 8192 rfl rfl).symm k) = ix2 k d :=
    funext fun a => Fin.ext (by
      match a with
      | ⟨0, _⟩ => exact (rhs_0 _ _).trans hk
      | ⟨1, _⟩ => exact rhs_1 _ _)
  rw [el, er]

/-! ## The stacked masks at an index -/

/-- Four [1, 8192] rows stacked into a [4, 8192] matrix: entry (g, j) is row g at (0, j). -/
theorem concat4_apply {α : Type} (r0 r1 r2 r3 : S1x8192.Idx → α)
    (h : Shape.Concatenates (([⟨S1x8192, r0⟩, ⟨S1x8192, r1⟩, ⟨S1x8192, r2⟩, ⟨S1x8192, r3⟩] :
      List ((s : Shape) × (s.Idx → α))).map (·.1)) S4x8192 0)
    (g : Fin 4) (j : Fin 8192) :
    concatenate S4x8192 0 [⟨S1x8192, r0⟩, ⟨S1x8192, r1⟩, ⟨S1x8192, r2⟩, ⟨S1x8192, r3⟩] h (ix2 g j)
      = (match g with | 0 => r0 | 1 => r1 | 2 => r2 | 3 => r3) (ix2 (0 : Fin 1) j) := by
  have hi : ∀ (g : Fin 4) (b : Fin S1x8192.rank), b.cast (rfl : S1x8192.rank = S4x8192.rank) ≠ (0 : Fin S4x8192.rank) →
      ((ix2 (0 : Fin 1) j : S1x8192.Idx) b).val = ((ix2 g j : S4x8192.Idx) (b.cast rfl)).val := fun g b hb => by
    match b with
    | ⟨0, _⟩ => exact absurd rfl hb
    | ⟨1, _⟩ => rfl
  match g with
  | 0 =>
    exact concatenate_apply_piece (0 : Fin S4x8192.rank) _ h (ix2 0 j) 0 (by simp) S1x8192 r0 rfl rfl 0 rfl
      (ix2 (0 : Fin 1) j) (hi 0) rfl
  | 1 =>
    exact concatenate_apply_piece (0 : Fin S4x8192.rank) _ h (ix2 1 j) 1 (by simp) S1x8192 r1 rfl rfl 1 rfl
      (ix2 (0 : Fin 1) j) (hi 1) rfl
  | 2 =>
    exact concatenate_apply_piece (0 : Fin S4x8192.rank) _ h (ix2 2 j) 2 (by simp) S1x8192 r2 rfl rfl 2 rfl
      (ix2 (0 : Fin 1) j) (hi 2) rfl
  | 3 =>
    exact concatenate_apply_piece (0 : Fin S4x8192.rank) _ h (ix2 3 j) 3 (by simp) S1x8192 r3 rfl rfl 3 rfl
      (ix2 (0 : Fin 1) j) (hi 3) rfl

/-- A bit widened to 32 bits and read as a signed integer is the bit's value 0 or 1. -/
theorem mask_val (b : BitVec 1) :
    FloatOps.sitofp (F := Ideal) .f32 (b.setWidth 32) = (((b.toNat : ℕ) : ℝ) : EReal) := by
  show ((((b.setWidth 32).toInt : ℤ) : ℝ) : EReal) = _
  have h : (b.setWidth 32).toInt = ((b.toNat : ℕ) : ℤ) := by revert b; decide
  rw [h, Int.cast_natCast]

/-! ## The four values of the body -/

/-- The block's product: entry (g, d) is the sum over the tile's rows of the row's weight in group g times its
    feature d. -/
theorem pay4_apply (v3 : Vec Ideal S1x8192 .f32) (v35 : Vec Ideal S8192x256 .f32) (g : Fin 4) (d : Fin 256) :
    k0_pay4 (F := Ideal) v3 v35 (ix2 g d) = ∑ j : Fin 8192, Cert.Groups.wt g (v3 (ix2 (0 : Fin 1) j)) * v35 (ix2 j d) := by
  have e : shapeCast S1x8192 v3 shapeCasts_S1x8192_S1x8192 = v3 := shapeCast_self _ _
  unfold k0_pay4
  rw [e]
  refine (matmul_ix _ _ g d).trans ?_
  refine Finset.sum_congr rfl fun j _ => ?_
  refine congrArg₂ (· * ·) ?_ rfl
  refine (concat4_apply _ _ _ _ _ g j).trans ?_
  match g with
  | 0 => exact mask_val _
  | 1 => exact mask_val _
  | 2 => exact mask_val _
  | 3 => exact mask_val _

/-- The body's update of the running sums: the old entry plus the block's product, under the [1, 4, 256] view. -/
theorem pay1_apply (v38 v39 : FVec Ideal S4x256 .f32) (g : Fin 4) (d : Fin 256) :
    k0_pay1 (F := Ideal) v38 v39 (ix3 (0 : Fin 1) g d) = v38 (ix2 g d) + v39 (ix2 g d) := by
  unfold k0_pay1
  refine (shapeCast_addUnit_apply (n := 2) ![4, 256] _ _ (ix3 (0 : Fin 1) g d)).trans ?_
  have e : (fun a : Fin 2 => (ix3 (0 : Fin 1) g d : S1x4x256.Idx) a.succ) = (ix2 g d : S4x256.Idx) :=
    funext fun a => by
      match a with
      | ⟨0, _⟩ => rfl
      | ⟨1, _⟩ => rfl
  exact congrArg (addf v38 v39) e

/-- The body's initial value of the running sums: zero everywhere. -/
theorem pay2_apply (g : Fin 4) (d : Fin 256) : k0_pay2 (F := Ideal) (ix3 (0 : Fin 1) g d) = (0 : EReal) :=
  Ideal.ofBits_zero_f32

/-- The running sums read under the [4, 256] view: entry (g, d) is entry (0, g, d). -/
theorem pay3_apply (v37 : Vec Ideal S1x4x256 .f32) (g : Fin 4) (d : Fin 256) :
    k0_pay3 (F := Ideal) v37 (ix2 g d) = v37 (ix3 (0 : Fin 1) g d) := by
  unfold k0_pay3
  refine (shapeCast_dropUnit_apply (n := 2) ![4, 256] v37 _ (ix2 g d)).trans ?_
  refine congrArg v37 (funext fun a => ?_)
  match a with
  | ⟨0, _⟩ => rfl
  | ⟨1, _⟩ => rfl
  | ⟨2, _⟩ => rfl

end Cert.BlockSum

end
-- ==== Proof.TileSums.lean ====
/-
  The masked sum of one column of the feature matrix over a run of consecutive rows.

  For a group g and a column d, row k contributes the weight of row k in group g (0 or 1) times the feature (k, d).
  `part a n` is the contribution of the n rows a, a + 1, …, a + n − 1. Runs that follow one another add up
  (`part_add`), all 262144 rows together give the group's sum (`part_total`), and the sum a block of 8192 rows
  forms from its own copies of the targets and the features is the run that starts at the block's first row (`tile`).
-/
import proofs.«100966_j32263794327816_2_alg».proof.Proof.Groups

noncomputable section

open scoped BigOperators

namespace Cert.TileSums

open Idealize.ShloMosaic Idealize.ShloMosaic.ValueIdx

variable (feat : (⟨2, ![262144, 256]⟩ : Shape).Idx → EReal) (tv : (⟨1, ![262144]⟩ : Shape).Idx → EReal)
  (g : Fin 4) (d : Fin 256)

/-- Row k's contribution, zero past the last row. -/
def term (k : ℕ) : EReal :=
  if h : k < 262144 then Cert.Groups.wt g (tv (ix1 ⟨k, h⟩)) * feat (ix2 ⟨k, h⟩ d) else 0

/-- The contribution of the rows a, …, a + n − 1. -/
def part (a n : ℕ) : EReal := ∑ i ∈ Finset.range n, term feat tv g d (a + i)

/-- A row below the last one contributes its weight times its feature. -/
theorem term_of_lt (k : ℕ) (h : k < 262144) :
    term feat tv g d k = Cert.Groups.wt g (tv (ix1 ⟨k, h⟩)) * feat (ix2 ⟨k, h⟩ d) := dif_pos h

/-- No rows contribute nothing. -/
theorem part_zero (a : ℕ) : part feat tv g d a 0 = 0 := Finset.sum_range_zero _

/-- A run of n + k rows is its first n rows and the k rows after them. -/
theorem part_add (a n k : ℕ) :
    part feat tv g d a (n + k) = part feat tv g d a n + part feat tv g d (a + n) k := by
  unfold part
  rw [Finset.sum_range_add]
  refine congrArg (_ + ·) (Finset.sum_congr rfl fun i _ => ?_)
  rw [Nat.add_assoc]

/-- All the rows: the group's sum of the column. -/
theorem part_total : part feat tv g d 0 262144 = Cert.Groups.sumAt feat tv g d := by
  unfold part Cert.Groups.sumAt
  rw [Finset.sum_range]
  refine Finset.sum_congr rfl fun n _ => ?_
  rw [Nat.zero_add]
  exact term_of_lt feat tv g d n.val n.isLt

/-- One block of 8192 rows: if the block's targets and features are rows t·8192, …, t·8192 + 8191 of the arrays, the
    block's masked sum of column d is the run of 8192 rows from t·8192. -/
theorem tile (t : ℕ) (ht : t < 32) (v3 : (⟨2, ![1, 8192]⟩ : Shape).Idx → EReal)
    (v35 : (⟨2, ![8192, 256]⟩ : Shape).Idx → EReal)
    (h3 : ∀ j : Fin 8192, v3 (ix2 (0 : Fin 1) j) = tv (ix1 ⟨t * 8192 + j.val, by omega⟩))
    (h35 : ∀ j : Fin 8192, v35 (ix2 j d) = feat (ix2 ⟨t * 8192 + j.val, by omega⟩ d)) :
    ∑ j : Fin 8192, Cert.Groups.wt g (v3 (ix2 (0 : Fin 1) j)) * v35 (ix2 j d)
      = part feat tv g d (t * 8192) 8192 := by
  unfold part
  rw [Finset.sum_range]
  refine Finset.sum_congr rfl fun j _ => ?_
  rw [h3 j, h35 j]
  exact (term_of_lt feat tv g d (t * 8192 + j.val) (by omega)).symm

end Cert.TileSums

end
-- ==== Proof.Tiles.lean ====
/-
  What the call's windows read, as plain equations at an index.

  When the call is entered the two arguments are as launched and the targets have been copied into one row of
  262144 numbers. The grid has 32 points; at point t the
  feature window reads the rows t·8192, …, t·8192 + 8191 of the features and the target window reads the same
  entries of the row of targets.
-/
import proofs.«100966_j32263794327816_2_alg».proof.Proof.FrameIdeal.Around
import Idealize.ShloMosaic.Lib.Pipeline.Value
import Idealize.ShloMosaic.Lib.ValueIdx
import Idealize.ShloMosaic.Lib.StableHlo.Run

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.KernelIdeal.Frm
open Idealize.ShloMosaic.StableHlo (after_cons after_nil)

variable {F : FTy → Type} [FloatOps F] (m : (ℓ : Loc nD τ sig) → Buf (Elt F) ℓ)

/-! ## The buffers when the call is entered -/

/-- The features are as launched. -/
theorem V_arg0 (c : Dev nD) : V m c main_arg0 = m ((c : Thread nD τ).loc main_arg0) := by
  dsimp only [V, V0]
  simp only [hostOps0, List.flatten_cons, List.flatten_nil, List.append_nil]
  after_results_simp

/-- The targets are as launched. -/
theorem V_arg1 (c : Dev nD) : V m c main_arg1 = m ((c : Thread nD τ).loc main_arg1) := by
  dsimp only [V, V0]
  simp only [hostOps0, List.flatten_cons, List.flatten_nil, List.append_nil]
  after_results_simp

/-- The row of targets is the targets under the [1, 262144] view. -/
theorem V_v31 (c : Dev nD) : (V m c main_v31 : FVec F S1x262144 .f32)
    = shapeCast S1x262144 (m ((c : Thread nD τ).loc main_arg1) : FVec F S262144 .f32) shapeCasts_S262144_S1x262144 := by
  dsimp only [V, V0]
  simp only [hostOps0, List.flatten_cons, List.flatten_nil, List.append_nil]
  after_results_simp
  rfl

/-- Entry (0, n) of the row of targets is target n. -/
theorem V_v31_apply (c : Dev nD) (n : Fin 262144) :
    (V m c main_v31 : FVec F S1x262144 .f32) (ix2 (0 : Fin 1) n)
      = (m ((c : Thread nD τ).loc main_arg1) : FVec F S262144 .f32) (ix1 n) := by
  rw [V_v31]
  have h1 : (S262144.rowMajor (ix1 n)).val = n.val := Shape.rowMajor_val_one (d := ![262144]) (ix1 n)
  have h2 : (S1x262144.rowMajor (ix2 (0 : Fin 1) n)).val = (0 : Fin 1).val * 262144 + n.val :=
    Shape.rowMajor_val_two (d := ![1, 262144]) (ix2 (0 : Fin 1) n)
  exact shapeCast_apply (s := S262144) (t := S1x262144) _ _ _ _ (h1.trans (by rw [h2]; simp))

/-! ## The windows' blocks -/

/-- The feature window's block index at point t is (t, 0). -/
theorem idx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)

/-- The target window's block index at point t is (0, t). -/
theorem idx1 : ∀ t : Fin cfg0.N, win0_1.index t (0 : Fin 2) = 0 ∧ win0_1.index t 1 = t.val :=
  (by decide +kernel : ∀ t : Fin grid0.N, win0_1.index t (0 : Fin 2) = 0 ∧ win0_1.index t 1 = t.val)

/-- Row j of block t is a row of the array. -/
theorem row_lt (t : Fin cfg0.N) (j : Fin 8192) : t.val * 8192 + j.val < 262144 := by
  have ht : t.val < 32 := lt_of_lt_of_eq t.isLt N_0
  have hj := j.isLt
  omega

/-- The feature block at point t: entry (j, d) is the feature (t·8192 + j, d). -/
theorem iblk0_apply (c : Dev nD) (t : Fin cfg0.N) (j : Fin 8192) (d : Fin 256) :
    (iblk m c 0 t : Vec F S8192x256 .f32) (ix2 j d)
      = (m ((c : Thread nD τ).loc main_arg0) : FVec F S262144x256 .f32) (ix2 ⟨t.val * 8192 + j.val, row_lt t j⟩ d) := by
  unfold iblk
  rw [View.read_apply]
  show V m c main_arg0 _ = _
  rw [V_arg0]
  refine congrArg _ (funext fun a => Fin.ext ?_)
  match a with
  | ⟨0, _⟩ =>
    show win0_0.index t 0 * 8192 + 1 * j.val = t.val * 8192 + j.val
    rw [(idx0 t).1]; omega
  | ⟨1, _⟩ =>
    show win0_0.index t 1 * 256 + 1 * d.val = d.val
    rw [(idx0 t).2]; omega

/-- The target block at point t: entry (0, j) is target t·8192 + j. -/
theorem iblk1_apply (c : Dev nD) (t : Fin cfg0.N) (j : Fin 8192) :
    (iblk m c 1 t : Vec F S1x8192 .f32) (ix2 (0 : Fin 1) j)
      = (m ((c : Thread nD τ).loc main_arg1) : FVec F S262144 .f32) (ix1 ⟨t.val * 8192 + j.val, row_lt t j⟩) := by
  unfold iblk
  rw [View.read_apply]
  show (V m c main_v31 : FVec F S1x262144 .f32) _ = _
  refine Eq.trans (congrArg _ (funext fun a => Fin.ext ?_)) (V_v31_apply m c ⟨t.val * 8192 + j.val, row_lt t j⟩)
  match a with
  | ⟨0, _⟩ =>
    show win0_1.index t 0 * 1 + 1 * (0 : Fin 1).val = (0 : Fin 1).val
    rw [(idx1 t).1]; simp
  | ⟨1, _⟩ =>
    show win0_1.index t 1 * 8192 + 1 * j.val = t.val * 8192 + j.val
    rw [(idx1 t).2]; omega

end Cert.KernelIdeal.Tiles

end
-- ==== Proof.KernelSums.lean ====
/-
  What the idealized kernel's call leaves in its result array, at the exact instance: the two halves' group sums.

  After the point (p, k) the accumulator block holds, at (g, d), the sum of the masked rows of the tiles 0 … k of
  half p (zero at the reset, then one tile's partial sums added per point); the block is written back after
  k = 15, so entry (p, g, d) of the result array is the sum over the 131072 rows of half p. Stated with
  `TileSums.part`: rows [a, a + n) of column d masked by group g.
-/
import proofs.«100966_j32263794327816_2_alg».proof.Proof.FrameIdeal.Frame
import proofs.«100966_j32263794327816_2_alg».proof.Proof.BlockSum
import proofs.«100966_j32263794327816_2_alg».proof.Proof.TileSums
import proofs.«100966_j32263794327816_2_alg».proof.Proof.Tiles
import Idealize.ShloMosaic.Lib.Pipeline.Value

set_option maxRecDepth 16384

noncomputable section

namespace Cert.KernelIdeal.Sums

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.KernelIdeal.Frm
open scoped BigOperators

section AnyF
variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- At a point with k > 0 the body leaves the previous contents plus the tile's partial sums. -/
theorem out_B (c : Dev nD) (i : grid0.Coords) (a2 : Memref sig .tc .vmem S8192x256 .f32) (h2 : a2.IsWhole)
    (a3 : Memref sig .tc .vmem S1x8192 .f32) (h3 : a3.IsWhole) (a4 : Memref sig .tc .vmem S1x4x256 .f32) (h4 : a4.IsWhole) (hc : ¬cond0_0 i)
    (x0 : Vec F S8192x256 .f32) (x1 : Vec F S1x8192 .f32) (xo : Vec F S1x4x256 .f32) :
    out0_B_2 c i a2 h2 a3 h3 a4 h4 hc x0 x1 xo = k0_pay1 (k0_pay3 xo) (k0_pay4 x1 x0) := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S8192x256) hz2,
    View.ld_unit_zero (S := S1x8192) hz2, View.ld_unit_zero (S := S1x4x256) hz3]

/-- At a point with k = 0 the body leaves the zero block plus the tile's partial sums. -/
theorem out_A (c : Dev nD) (i : grid0.Coords) (a2 : Memref sig .tc .vmem S8192x256 .f32) (h2 : a2.IsWhole)
    (a3 : Memref sig .tc .vmem S1x8192 .f32) (h3 : a3.IsWhole) (a4 : Memref sig .tc .vmem S1x4x256 .f32) (h4 : a4.IsWhole) (hc : cond0_0 i)
    (x0 : Vec F S8192x256 .f32) (x1 : Vec F S1x8192 .f32) :
    out0_A_2 c i a2 h2 a3 h3 a4 h4 hc x0 x1 = k0_pay1 (k0_pay3 (k0_pay2 (F := F))) (k0_pay4 x1 x0) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x256) hz3, View.readCov_unit_zero (S := S1x4x256) _ hz3]
  simp only [View.readAt_eq_ld, h2.read_unread, h3.read_unread, View.ld_unit_zero (S := S8192x256) hz2,
    View.ld_unit_zero (S := S1x8192) hz2, View.ld_unit_zero (S := S1x4x256) hz3]

end AnyF

/-! ## At the exact instance -/

section AtIdeal

variable (m : (ℓ : Loc nD τ sig) → Buf (Elt Ideal) ℓ) (ρ : Dev nD → PrngReg)

/-- The launch contents of the two arguments, as plain arrays of extended reals. -/
abbrev feat (c : Dev nD) : (⟨2, ![262144, 256]⟩ : Shape).Idx → EReal := m ((c : Thread nD τ).loc main_arg0)
abbrev tv (c : Dev nD) : (⟨1, ![262144]⟩ : Shape).Idx → EReal := m ((c : Thread nD τ).loc main_arg1)

theorem part_congr (F : (⟨2, ![262144, 256]⟩ : Shape).Idx → EReal) (T : (⟨1, ![262144]⟩ : Shape).Idx → EReal)
    {g g' : Fin 4} {d d' : Fin 256} {a a' n n' : ℕ} (hg : g = g') (hd : d = d') (ha : a = a') (hn : n = n') :
    Cert.TileSums.part F T g d a n = Cert.TileSums.part F T g' d' a' n' := by subst hg hd ha hn; rfl

/-- One tile's partial sums: the masked rows t·8192 … t·8192 + 8191. -/
theorem tile_apply (c : Dev nD) (t : Fin cfg0.N) (g : Fin 4) (d : Fin 256) :
    k0_pay4 (F := Ideal) (iblk m c 1 t) (iblk m c 0 t) (ix2 g d)
      = Cert.TileSums.part (feat m c) (tv m c) g d (t.val * 8192) 8192 := by
  have hN : t.val < 32 := lt_of_lt_of_eq t.isLt N_0
  exact (Cert.BlockSum.pay4_apply _ _ g d).trans
    (Cert.TileSums.tile (feat m c) (tv m c) g d t.val hN _ _ (fun j => Cert.KernelIdeal.Tiles.iblk1_apply m c t j)
      (fun j => Cert.KernelIdeal.Tiles.iblk0_apply m c t j d))

/-- After point n the accumulator holds, at (g, d), the masked rows of its half up to the end of tile n. -/
theorem acc_apply (c : Dev nD) : ∀ (n : ℕ) (h : n < cfg0.N) (g : Fin 4) (d : Fin 256),
    outsAt0 m c n h (ix3 (0 : Fin 1) g d)
      = Cert.TileSums.part (feat m c) (tv m c) g d (n / 16 * 131072) ((n % 16 + 1) * 8192)
  | 0, h, g, d => by
    rw [outsAt0_A m c ⟨0, h⟩ rfl, out_A, Cert.BlockSum.pay1_apply, Cert.BlockSum.pay3_apply, Cert.BlockSum.pay2_apply, zero_add,
      tile_apply]
    exact part_congr _ _ rfl rfl (by norm_num) (by norm_num)
  | n + 1, h, g, d => by
    have hN : n + 1 < 32 := lt_of_lt_of_eq h N_0
    by_cases h0 : (n + 1) % 16 = 0
    · rw [outsAt0_A m c ⟨n + 1, h⟩ h0, out_A, Cert.BlockSum.pay1_apply, Cert.BlockSum.pay3_apply, Cert.BlockSum.pay2_apply, zero_add,
        tile_apply]
      show Cert.TileSums.part _ _ g d ((n + 1) * 8192) 8192 = _
      rw [show (n + 1) / 16 * 131072 = (n + 1) * 8192 from by omega, show ((n + 1) % 16 + 1) * 8192 = 8192 from by omega]
    · rw [outsAt0_B m c ⟨n + 1, h⟩ h0, out_B, Cert.BlockSum.pay1_apply, Cert.BlockSum.pay3_apply, tile_apply]
      show outsAt0 m c n _ (ix3 (0 : Fin 1) g d) + Cert.TileSums.part _ _ g d ((n + 1) * 8192) 8192 = _
      rw [acc_apply c n _ g d, ← show n / 16 * 131072 + (n % 16 + 1) * 8192 = (n + 1) * 8192 from by omega, ← Cert.TileSums.part_add,
        show (n + 1) / 16 * 131072 = n / 16 * 131072 from by omega,
        show (n % 16 + 1) * 8192 + 8192 = ((n + 1) % 16 + 1) * 8192 from by omega]

end AtIdeal

end Cert.KernelIdeal.Sums

end
-- ==== Proof.Halves.lean ====
/-
  The sum of the two halves.

  The kernel returns one 4 × 256 block of group sums per half of the rows, stacked as a 2 × 4 × 256 array; the host
  code adds the two blocks with a float sum over the first axis from zero. At an entry (g, d) that sum is the
  first half's entry plus the second half's.
-/
import proofs.«100966_j32263794327816_2_alg».proof.Proof.Gen.KernelIdeal
import Idealize.ShloMosaic.PureOps.Ideal.Laws
import Idealize.ShloMosaic.Lib.ValueIdx

noncomputable section

open scoped BigOperators

namespace Cert.Halves

open Idealize.ShloMosaic Idealize.ShloMosaic.ValueIdx Cert.KernelIdeal Cert.KernelIdeal.Gen

/-- The float sum over the first axis of a 2 × 4 × 256 array, from zero, at (g, d): the two blocks' entries added. -/
theorem halves_apply (arr : FVec Ideal S2x4x256 .f32) (g : Fin 4) (d : Fin 256) :
    Host.reduceAdd (F := Ideal) arr (constant (F := Ideal) S_ .f32 0x00000000#32) reducesTo_S2x4x256_S4x256_d0 h_S_ (ix2 g d)
      = arr (ix3 (0 : Fin 2) g d) + arr (ix3 (1 : Fin 2) g d) := by
  simp only [Host.reduceAdd, Ideal.hostReduceAdd_def]
  have hR : S2x4x256.Reduces [0] S4x256 := by decide
  rw [Ideal.hostReduceAdd_single reducesTo_S2x4x256_S4x256_d0 hR]
  have h0 : hR.lift (ix2 g d) (0 : Fin 2) = ix3 (0 : Fin 2) g d := funext fun a => Fin.ext (by
    match a with | ⟨0, _⟩ => rfl | ⟨1, _⟩ => rfl | ⟨2, _⟩ => rfl)
  have h1 : hR.lift (ix2 g d) (1 : Fin 2) = ix3 (1 : Fin 2) g d := funext fun a => Fin.ext (by
    match a with | ⟨0, _⟩ => rfl | ⟨1, _⟩ => rfl | ⟨2, _⟩ => rfl)
  show constant (F := Ideal) S_ .f32 0x00000000#32 (Shape.Idx.first h_S_) + ∑ k : Fin 2, arr (hR.lift (ix2 g d) k) = _
  rw [Fin.sum_univ_two, h0, h1, constant_apply, Ideal.ofBits_zero_f32, zero_add]

end Cert.Halves

end
-- ==== Proof.HalfSums.lean ====
/-
  The call's result array after the run, and the two halves added up.

  The accumulator block of half p is written back once, after its sixteenth tile, when it holds the sums over
  all 131072 rows of the half; the two blocks tile the [2, 4, 256] result array, so entry (p, g, d) is that sum.
  The host's addition of the two halves is then the sum over all 262144 rows: the group sums.
-/
import proofs.«100966_j32263794327816_2_alg».proof.Proof.KernelSums
import proofs.«100966_j32263794327816_2_alg».proof.Proof.Halves

set_option maxRecDepth 16384

noncomputable section

namespace Cert.KernelIdeal.Sums

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.KernelIdeal.Frm
open scoped BigOperators

variable (m : (ℓ : Loc nD τ sig) → Buf (Elt Ideal) ℓ) (ρ : Dev nD → PrngReg)

/-- The result window's block index at point t is (t / 16, 0, 0): decided over the grid. -/
theorem idx2 : ∀ t : Fin cfg0.N, win0_2.index t (0 : Fin 3) = t.val / 16 ∧ win0_2.index t 1 = 0 ∧ win0_2.index t 2 = 0 :=
  (by decide +kernel : ∀ t : Fin grid0.N, win0_2.index t (0 : Fin 3) = t.val / 16 ∧ win0_2.index t 1 = 0 ∧ win0_2.index t 2 = 0)

/-- The result array after the run: entry (p, g, d) is the masked sum of column d over the rows of half p. -/
def halfSums (c : Dev nD) : Buf (Elt Ideal) ((c : Thread nD τ).loc main_v32) := fun i =>
  Cert.TileSums.part (feat m c) (tv m c) (i 1) (i 2) ((i 0).val * 131072) 131072

/-- A block of the result array, read back at an index of the block. -/
theorem read_blk2 (c : Dev nD) (t : Fin cfg0.N) (f : Buf (Elt Ideal) ((c : Thread nD τ).loc main_v32))
    (y : ((cfg0.win 2).xblock (grid0.coords t)).Idx) :
    ((cfg0.win 2).blk t).view.read (Elt Ideal) f y = f (((cfg0.win 2).blk t).view.emb y) := rfl

/-- What the point (p, 15) writes back is block p of `halfSums`. -/
theorem flushed_eq (c : Dev nD)
    (t : Fin cfg0.N) (hf : (cfg0.win 2).flush t = true) :
    (dats m 0 c).flushed 2 t = ((cfg0.win 2).blk t).view.read (Elt Ideal) (halfSums m c) := by
  have hN : t.val < 32 := lt_of_lt_of_eq t.isLt N_0
  have h15 : t.val % 16 = 15 := (flush0_2 t).mp hf
  show (cfg0.win 2).cut (grid0.coords t) ((dats m 0 c).after 2 t) = _
  rw [after0_2]
  funext y
  rw [read_blk2]
  have hy : (cfg0.win 2).xinj (grid0.coords t) y = ix3 (0 : Fin 1) (⟨(y 1).val, (y 1).isLt⟩ : Fin 4) (⟨(y 2).val, (y 2).isLt⟩ : Fin 256) := by
    funext a
    match a with
    | ⟨0, _⟩ => exact Fin.ext (Nat.lt_one_iff.mp (show (y 0).val < 1 from (y 0).isLt))
    | ⟨1, _⟩ => rfl
    | ⟨2, _⟩ => rfl
  show outsAt0 m c t.val t.isLt ((cfg0.win 2).xinj (grid0.coords t) y) = _
  rw [hy, acc_apply]
  unfold halfSums
  refine part_congr _ _ (Fin.ext ?_) (Fin.ext ?_) ?_ ?_
  · show (y 1).val = win0_2.index t 1 * 4 + 1 * (y 1).val
    rw [(idx2 t).2.1]; omega
  · show (y 2).val = win0_2.index t 2 * 256 + 1 * (y 2).val
    rw [(idx2 t).2.2]; omega
  · show t.val / 16 * 131072 = (win0_2.index t 0 * 1 + 1 * (y 0).val) * 131072
    have := (show (y 0).val < 1 from (y 0).isLt)
    rw [(idx2 t).1]; omega
  · omega

/-- Every entry of the result array lies in the block written back after the last tile of its half. -/
theorem final (c : Dev nD) :
    (dats m 0 c).arrAt 2 cfg0.N = halfSums m c :=
  (dats m 0 c).arrAt_eq_of_cover 2 (halfSums m c) (flushed_eq m c) fun i => by
    have hN : cfg0.N = 32 := N_0
    have hi0 : (i 0).val < 2 := (i 0).isLt
    have hi1 : (i 1).val < 4 := (i 1).isLt
    have hi2 : (i 2).val < 256 := (i 2).isLt
    have ht : 16 * (i 0).val + 15 < cfg0.N := by omega
    refine ⟨⟨16 * (i 0).val + 15, ht⟩, (flush0_2 _).mpr (by show (16 * (i 0).val + 15) % 16 = 15; omega), ?_⟩
    show i ∈ ((View.whole main_v32).slice (win0_2.rect ⟨16 * (i 0).val + 15, ht⟩)).set
    rw [View.set_slice_whole, Rect.mem_set_unit]
    intro a
    match a with
    | ⟨0, _⟩ =>
      show win0_2.index ⟨16 * (i 0).val + 15, ht⟩ 0 * 1 ≤ (i 0 : Nat) ∧ (i 0 : Nat) < win0_2.index ⟨16 * (i 0).val + 15, ht⟩ 0 * 1 + 1
      rw [(idx2 ⟨16 * (i 0).val + 15, ht⟩).1]; show (16 * (i 0).val + 15) / 16 * 1 ≤ _ ∧ _ < (16 * (i 0).val + 15) / 16 * 1 + 1; omega
    | ⟨1, _⟩ =>
      show win0_2.index ⟨16 * (i 0).val + 15, ht⟩ 1 * 4 ≤ (i 1 : Nat) ∧ (i 1 : Nat) < win0_2.index ⟨16 * (i 0).val + 15, ht⟩ 1 * 4 + 4
      rw [(idx2 ⟨16 * (i 0).val + 15, ht⟩).2.1]; omega
    | ⟨2, _⟩ =>
      show win0_2.index ⟨16 * (i 0).val + 15, ht⟩ 2 * 256 ≤ (i 2 : Nat) ∧ (i 2 : Nat) < win0_2.index ⟨16 * (i 0).val + 15, ht⟩ 2 * 256 + 256
      rw [(idx2 ⟨16 * (i 0).val + 15, ht⟩).2.2]; omega

/-- The two halves added up are the group sums. -/
theorem sums_eq (c : Dev nD) :
    Host.reduceAdd (F := Ideal) ((dats m 0 c).arrAt 2 cfg0.N) (constant (F := Ideal) S_ .f32 0x00000000#32) reducesTo_S2x4x256_S4x256_d0 h_S_
      = Cert.Groups.sums (feat m c) (tv m c) := by
  rw [final m c]
  funext i
  obtain ⟨g, d, rfl⟩ : ∃ (g : Fin 4) (d : Fin 256), i = ix2 g d := ⟨i 0, i 1, eq_ix2 i⟩
  rw [Cert.Halves.halves_apply]
  show Cert.TileSums.part (feat m c) (tv m c) g d (0 * 131072) 131072 + Cert.TileSums.part (feat m c) (tv m c) g d (1 * 131072) 131072
    = Cert.Groups.sumAt (feat m c) (tv m c) g d
  rw [← Cert.TileSums.part_total, show (262144 : ℕ) = 131072 + 131072 from rfl, Cert.TileSums.part_add]

end Cert.KernelIdeal.Sums

end
-- ==== Proof.HostCounts.lean ====
/-
  The four group counts as the kernel's host code computes them before the call: each membership bit widened to a
  32-bit integer, the integers added up over all 262144 rows, the four totals joined and converted to floats.
-/
import proofs.«100966_j32263794327816_2_alg».proof.Proof.Gen.KernelIdeal
import Idealize.ShloMosaic.PureOps.Ideal

noncomputable section

namespace Cert.HostCounts

open Idealize.ShloMosaic Cert.KernelIdeal Cert.KernelIdeal.Gen

/-- A threshold word spread over all rows. -/
def thr (w : BitVec 32) : FVec Ideal S262144 .f32 :=
  broadcastInDim S262144 ![] bcast_S_S262144 (constant (F := Ideal) S_ .f32 w)

/-- The integer total of a vector of membership bits, as a one-element vector. -/
def intCount (b : IVec S262144 1) : IVec S1 32 :=
  broadcastInDim S1 ![] bcast_S_S1
    (Host.reduce IntOp.addi (extui 32 b natLt_1_32) (constantI S_ 32 0#32) reducesTo_S262144_S_d0 h_S_)

/-- The four totals joined and converted to floats. -/
def term (t : FVec Ideal S262144 .f32) : FVec Ideal S4 .f32 :=
  sitofp (F := Ideal) .f32 (concatenate S4 0
    [⟨S1, intCount (cmpf .ole t (thr 0x3DCCCCCD#32))⟩,
     ⟨S1, intCount (andi (cmpf .ogt t (thr 0x3E99999A#32)) (cmpf .ole t (thr 0x3ECCCCCD#32)))⟩,
     ⟨S1, intCount (andi (cmpf .ogt t (thr 0x3F19999A#32)) (cmpf .ole t (thr 0x3F333333#32)))⟩,
     ⟨S1, intCount (andi (cmpf .ogt t (thr 0x3F4CCCCD#32)) (cmpf .ole t (thr 0x3F8CCCCD#32)))⟩]
    concatenates_S1_S1_S1_S1_S4_d0)

end Cert.HostCounts

end
-- ==== Proof.CountsAtEntry.lean ====
/-
  The four counts when the call is entered: what the host computed from the targets before the call.

  The host lines before the call compare the targets with the thresholds, widen each membership bit to a 32-bit
  integer, add the integers up, join the four totals and convert them to floats; no later line before the call
  writes the joined vector again.
-/
import proofs.«100966_j32263794327816_2_alg».proof.Proof.FrameIdeal.Around
import proofs.«100966_j32263794327816_2_alg».proof.Proof.HostCounts
import Idealize.ShloMosaic.Lib.Pipeline.Value
import Idealize.ShloMosaic.Lib.ValueIdx
import Idealize.ShloMosaic.Lib.StableHlo.Run

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.KernelIdeal.Frm

/-- The four totals read at the four buffers by their place in the list are the four totals read at the buffers
    themselves. -/
theorem join_at_literals (X : Valuation τ sig (Elt Ideal)) :
    (sitofp (F := Ideal) .f32 (concatenate S4 0
      [⟨S1, X (Proc.devRef .tc ((![main_v25, main_v26, main_v27, main_v28] : Fin 4 → Ref sig .tc) 0))⟩,
       ⟨S1, X (Proc.devRef .tc ((![main_v25, main_v26, main_v27, main_v28] : Fin 4 → Ref sig .tc) 1))⟩,
       ⟨S1, X (Proc.devRef .tc ((![main_v25, main_v26, main_v27, main_v28] : Fin 4 → Ref sig .tc) 2))⟩,
       ⟨S1, X (Proc.devRef .tc ((![main_v25, main_v26, main_v27, main_v28] : Fin 4 → Ref sig .tc) 3))⟩]
      concatenates_S1_S1_S1_S1_S4_d0) : FVec Ideal S4 .f32)
    = sitofp (F := Ideal) .f32 (concatenate S4 0
      [⟨S1, X (Proc.devRef .tc main_v25)⟩, ⟨S1, X (Proc.devRef .tc main_v26)⟩,
       ⟨S1, X (Proc.devRef .tc main_v27)⟩, ⟨S1, X (Proc.devRef .tc main_v28)⟩]
      concatenates_S1_S1_S1_S1_S4_d0) := rfl

/-- The joined and converted totals depend on the four totals only. -/
theorem join_congr {a a' b b' c c' d d' : IVec S1 32} (ha : a = a') (hb : b = b') (hc : c = c') (hd : d = d') :
    (sitofp (F := Ideal) .f32 (concatenate S4 0 [⟨S1, a⟩, ⟨S1, b⟩, ⟨S1, c⟩, ⟨S1, d⟩]
      concatenates_S1_S1_S1_S1_S4_d0) : FVec Ideal S4 .f32)
    = sitofp (F := Ideal) .f32 (concatenate S4 0 [⟨S1, a'⟩, ⟨S1, b'⟩, ⟨S1, c'⟩, ⟨S1, d'⟩]
      concatenates_S1_S1_S1_S1_S4_d0) := by
  subst ha hb hc hd; rfl

/-- The four counts as the host computed them from the targets. -/
theorem V_v30 (m : (ℓ : Loc nD τ sig) → Buf (Elt Ideal) ℓ) (c : Dev nD) :
    V m c main_v30 = Cert.HostCounts.term (m ((c : Thread nD τ).loc main_arg1)) := by
  dsimp only [V, V0]
  simp only [hostOps0, List.flatten_cons, List.flatten_nil, List.append_nil]
  after_results_simp
  refine Eq.trans (join_at_literals _) ?_
  refine join_congr ?_ ?_ ?_ ?_
  · after_results_simp
    rfl
  · after_results_simp
    rfl
  · after_results_simp
    rfl
  · after_results_simp
    rfl

end Cert.KernelIdeal.Tiles

end
-- ==== Proof.HostCountsValue.lean ====
/-
  The host-side counts are the group counts.

  The kernel's host code counts a group with integers: every membership bit is widened to a 32-bit word, the
  262144 words are added up from zero, and the total is read as a signed integer and converted to a float.
  Each word is 0 or 1 and there are fewer than 2^31 of them, so the 32-bit sum never wraps, its signed reading
  is the natural number of rows in the group, and the real number it converts to is the sum of the 0/1 weights.
-/
import proofs.«100966_j32263794327816_2_alg».proof.Proof.HostCounts
import proofs.«100966_j32263794327816_2_alg».proof.Proof.Groups
import Idealize.ShloMosaic.PureOps.Reduce
import Idealize.ShloMosaic.Lib.Pipeline.Value
import Idealize.ShloMosaic.Lib.ValueIdx

noncomputable section

open scoped BigOperators

namespace Cert.HostCounts

open Idealize.ShloMosaic Idealize.ShloMosaic.ValueIdx Cert.KernelIdeal Cert.KernelIdeal.Gen

/-- A sum of 32-bit words, read as a natural number, is the sum of the words' values modulo 2^32. -/
theorem fold_addi_toNat {ι : Type} (S : Finset ι) (f : ι → BitVec 32) :
    (S.fold IntOp.addi 0#32 f).toNat = (∑ k ∈ S, (f k).toNat) % 2 ^ 32 := by
  induction S using Finset.cons_induction with
  | empty => simp
  | cons a S ha ih =>
    rw [Finset.fold_cons, Finset.sum_cons]
    show (f a + _).toNat = _
    rw [BitVec.toNat_add, ih, Nat.add_mod_mod]

/-- While the values add up to less than 2^31 the 32-bit sum does not wrap, and its signed reading is their sum. -/
theorem fold_addi_toInt {ι : Type} (S : Finset ι) (f : ι → BitVec 32) (h : ∑ k ∈ S, (f k).toNat < 2 ^ 31) :
    (S.fold IntOp.addi 0#32 f).toInt = ((∑ k ∈ S, (f k).toNat : Nat) : Int) := by
  have hnat : (S.fold IntOp.addi 0#32 f).toNat = ∑ k ∈ S, (f k).toNat := by
    rw [fold_addi_toNat, Nat.mod_eq_of_lt (by omega)]
  rw [BitVec.toInt_eq_toNat_cond, hnat, if_pos (by omega)]

/-- The embedding of the reals in the extended reals commutes with finite sums. -/
theorem ereal_coe_sum {ι : Type} (S : Finset ι) (f : ι → ℝ) :
    ((∑ k ∈ S, f k : ℝ) : EReal) = ∑ k ∈ S, ((f k : ℝ) : EReal) := by
  induction S using Finset.cons_induction with
  | empty => simp
  | cons a S ha ih => rw [Finset.sum_cons, Finset.sum_cons, EReal.coe_add, ih]

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The integer total of a vector of membership bits, converted, is the sum of the bits as real numbers. -/
theorem intCount_apply (b : IVec S262144 1) (i : S1.Idx) :
    (((intCount b i).toInt : ℝ) : EReal) = ∑ n : Fin 262144, (((b (ix1 n)).toNat : ℝ) : EReal) := by
  unfold intCount
  rw [broadcastInDim_apply _ bcast_S_S1 _ i (fun a => a.elim0) (fun a => a.elim0)]
  rw [Host.reduce_eq_fold]
  have hall : (Finset.univ.filter fun i : S262144.Idx => reducesTo_S262144_S_d0.drop i = (fun a => a.elim0))
      = Finset.univ := Finset.filter_true_of_mem fun i _ => funext fun a => a.elim0
  rw [hall]
  have hterm : ∀ j : S262144.Idx, (extui 32 b natLt_1_32 j).toNat = (b j).toNat := fun j => by
    rw [extui_apply, BitVec.toNat_setWidth, Nat.mod_eq_of_lt (by have := (b j).isLt; omega)]
  have hsum : ∑ j : S262144.Idx, (extui 32 b natLt_1_32 j).toNat = ∑ n : Fin 262144, (b (ix1 n)).toNat := by
    rw [sum_idx1]; exact Finset.sum_congr rfl fun n _ => hterm _
  have hle : ∑ n : Fin 262144, (b (ix1 n)).toNat ≤ 262144 := by
    calc ∑ n : Fin 262144, (b (ix1 n)).toNat ≤ ∑ _n : Fin 262144, 1 :=
          Finset.sum_le_sum fun n _ => by have := (b (ix1 n)).isLt; omega
      _ = 262144 := by simp
  show ((((Finset.univ : Finset S262144.Idx).fold IntOp.addi 0#32 (extui 32 b natLt_1_32)).toInt : ℝ) : EReal) = _
  rw [fold_addi_toInt _ _ (by rw [hsum]; omega), hsum, Int.cast_natCast, Nat.cast_sum, ereal_coe_sum]

/-- A threshold spread over all rows, read at a row, is the threshold. -/
theorem thr_apply (w : BitVec 32) (i : S262144.Idx) : thr w i = Ideal.ofBits .f32 w := by
  unfold thr
  exact broadcastInDim_apply _ bcast_S_S262144 _ i (fun a => a.elim0) (fun a => a.elim0)

/-- The four totals that are joined, in order. -/
def pieces (t : FVec Ideal S262144 .f32) : List ((s : Shape) × (s.Idx → BitVec 32)) :=
  [⟨S1, intCount (cmpf .ole t (thr 0x3DCCCCCD#32))⟩,
   ⟨S1, intCount (andi (cmpf .ogt t (thr 0x3E99999A#32)) (cmpf .ole t (thr 0x3ECCCCCD#32)))⟩,
   ⟨S1, intCount (andi (cmpf .ogt t (thr 0x3F19999A#32)) (cmpf .ole t (thr 0x3F333333#32)))⟩,
   ⟨S1, intCount (andi (cmpf .ogt t (thr 0x3F4CCCCD#32)) (cmpf .ole t (thr 0x3F8CCCCD#32)))⟩]

/-- The reading of one of the four joined totals: piece `g` of the concatenation sits at coordinate `g`. -/
theorem piece_apply (t : FVec Ideal S262144 .f32) (g : Fin 4) (b : IVec S262144 1)
    (hb : (pieces t)[g.val]'(g.isLt) = ⟨S1, intCount b⟩)
    (hpre : ((((pieces t).take g.val).map (·.1)).map
        fun s => if h : s.rank = S4.rank then s.size ((0 : Fin S4.rank).cast h.symm) else 0).sum = g.val) :
    term t (ix1 g) = ∑ n : Fin 262144, (((b (ix1 n)).toNat : ℝ) : EReal) := by
  have hc := concatenate_apply_piece (α := BitVec 32) (0 : Fin S4.rank) (pieces t) concatenates_S1_S1_S1_S1_S4_d0
    (ix1 g) g.val g.isLt S1 (intCount b) hb rfl g.val hpre (ix1 (0 : Fin 1))
    (fun c hc => absurd (Subsingleton.elim _ _) hc) rfl
  show (((concatenate S4 0 (pieces t) concatenates_S1_S1_S1_S1_S4_d0 (ix1 g)).toInt : ℝ) : EReal) = _
  rw [hc]
  exact intCount_apply b _

/-- The host's count of group `g` is the number of its rows. -/
theorem term_apply (t : FVec Ideal S262144 .f32) (g : Fin 4) : term t (ix1 g) = Cert.Groups.countAt t g := by
  unfold Cert.Groups.countAt Cert.Groups.wt
  match g with
  | 0 =>
    rw [piece_apply t 0 _ rfl rfl]
    refine Finset.sum_congr rfl fun n _ => ?_
    rw [cmpf_apply, thr_apply]; rfl
  | 1 =>
    rw [piece_apply t 1 _ rfl rfl]
    refine Finset.sum_congr rfl fun n _ => ?_
    show ((((IntOp.andi (cmpf .ogt t (thr 0x3E99999A#32) (ix1 n)) (cmpf .ole t (thr 0x3ECCCCCD#32) (ix1 n))).toNat : Nat) : ℝ) : EReal) = _
    rw [cmpf_apply, cmpf_apply, thr_apply, thr_apply]; rfl
  | 2 =>
    rw [piece_apply t 2 _ rfl rfl]
    refine Finset.sum_congr rfl fun n _ => ?_
    show ((((IntOp.andi (cmpf .ogt t (thr 0x3F19999A#32) (ix1 n)) (cmpf .ole t (thr 0x3F333333#32) (ix1 n))).toNat : Nat) : ℝ) : EReal) = _
    rw [cmpf_apply, cmpf_apply, thr_apply, thr_apply]; rfl
  | 3 =>
    rw [piece_apply t 3 _ rfl rfl]
    refine Finset.sum_congr rfl fun n _ => ?_
    show ((((IntOp.andi (cmpf .ogt t (thr 0x3F4CCCCD#32) (ix1 n)) (cmpf .ole t (thr 0x3F8CCCCD#32) (ix1 n))).toNat : Nat) : ℝ) : EReal) = _
    rw [cmpf_apply, cmpf_apply, thr_apply, thr_apply]; rfl

/-- The host-side counts are the four group counts. -/
theorem term_eq (t : FVec Ideal Cert.KernelIdeal.S262144 .f32) : Cert.HostCounts.term t = Cert.Groups.counts t := by
  funext i
  calc term t i = term t (ix1 (i 0)) := congrArg (term t) (eq_ix1 i)
    _ = Cert.Groups.countAt t (i 0) := term_apply t (i 0)

end Cert.HostCounts

end
-- ==== Proof.Loss.lean ====
/-
  The margin loss as one function of the four group counts and the 4 × 256 group sums.

  Both programs finish with the same arithmetic: the group means (a group's sum divided by max(count, 1), and
  zero for an empty group), the six Euclidean distances between the means, and the sum of six hinge terms
  max(d - d' + margin, 0). It is written here once, so that the two results are compared through the counts and
  the sums alone and this arithmetic is never opened.
-/
import proofs.«100966_j32263794327816_2_alg».proof.Proof.Gen.KernelIdeal
import Idealize.ShloMosaic.PureOps.Ideal

noncomputable section

namespace Cert.Loss

open Idealize.ShloMosaic Cert.KernelIdeal Cert.KernelIdeal.Gen

/-- The scalar zero, one, and the two margins, as the shared words. -/
abbrev zero : FVec Ideal S_ .f32 := constant (F := Ideal) S_ .f32 0x00000000#32
abbrev m075 : FVec Ideal S_ .f32 := constant (F := Ideal) S_ .f32 0x3F400000#32
abbrev m150 : FVec Ideal S_ .f32 := constant (F := Ideal) S_ .f32 0x3FC00000#32

/-- The group means: sum / max(count, 1) where the count is positive, zero elsewhere. -/
def means (cnt : FVec Ideal S4 .f32) (sm : FVec Ideal S4x256 .f32) : FVec Ideal S4x256 .f32 :=
  select (broadcastInDim S4x256 ![0, 1] bcast_S4x1_S4x256_0_1
      (cmpf .ogt (broadcastInDim S4x1 ![0] bcast_S4_S4x1_0 cnt) (broadcastInDim S4x1 ![] bcast_S_S4x1 zero)))
    (Host.divf (F := Ideal) sm (broadcastInDim S4x256 ![0, 1] bcast_S4x1_S4x256_0_1 (broadcastInDim S4x1 ![0] bcast_S4_S4x1_0
      (maximumf cnt (broadcastInDim S4 ![] bcast_S_S4 (constant (F := Ideal) S_ .f32 0x3F800000#32))))))
    (broadcastInDim S4x256 ![] bcast_S_S4x256 (id zero))

/-- The Euclidean norm of a difference of two rows. -/
def dist (a b : FVec Ideal S256 .f32) : FVec Ideal S_ .f32 :=
  Host.sqrt (F := Ideal) (Host.reduceAdd (F := Ideal) (mulf (subf a b) (subf a b)) zero reducesTo_S256_S_d0 h_S_)

def row0 (mn : FVec Ideal S4x256 .f32) : FVec Ideal S256 .f32 :=
  shapeCast _ (extractStridedSlice S1x256 ![0, 0] mn slices_S4x256_S1x256_0_0) shapeCasts_S1x256_S256
def row1 (mn : FVec Ideal S4x256 .f32) : FVec Ideal S256 .f32 :=
  shapeCast _ (extractStridedSlice S1x256 ![1, 0] mn slices_S4x256_S1x256_1_0) shapeCasts_S1x256_S256
def row2 (mn : FVec Ideal S4x256 .f32) : FVec Ideal S256 .f32 :=
  shapeCast _ (extractStridedSlice S1x256 ![2, 0] mn slices_S4x256_S1x256_2_0) shapeCasts_S1x256_S256
def row3 (mn : FVec Ideal S4x256 .f32) : FVec Ideal S256 .f32 :=
  shapeCast _ (extractStridedSlice S1x256 ![3, 0] mn slices_S4x256_S1x256_3_0) shapeCasts_S1x256_S256

/-- One hinge term max(d - d' + margin, 0). -/
def hinge (d d' mg : FVec Ideal S_ .f32) : FVec Ideal S_ .f32 := maximumf (addf (subf d d') mg) zero

/-- The loss from the means. -/
def ofMeans (mn : FVec Ideal S4x256 .f32) : FVec Ideal S_ .f32 :=
  addf (addf (addf (addf (addf
    (hinge (dist (row0 mn) (row1 mn)) (dist (row0 mn) (row2 mn)) m075)
    (hinge (dist (row0 mn) (row1 mn)) (dist (row0 mn) (row3 mn)) m150))
    (hinge (dist (row1 mn) (row2 mn)) (dist (row1 mn) (row3 mn)) m075))
    (hinge (dist (row1 mn) (row2 mn)) (dist (row0 mn) (row3 mn)) m150))
    (hinge (dist (row2 mn) (row3 mn)) (dist (row1 mn) (row3 mn)) m075))
    (hinge (dist (row2 mn) (row3 mn)) (dist (row0 mn) (row3 mn)) m150)

/-- The loss from the counts and the sums. -/
def loss (cnt : FVec Ideal S4 .f32) (sm : FVec Ideal S4x256 .f32) : FVec Ideal S_ .f32 := ofMeans (means cnt sm)

end Cert.Loss

end
-- ==== Proof.LossAtExit.lean ====
/-
  The program's result, read back from the host lines after the call.

  After the call the host adds the two 4 × 256 blocks the call wrote, and from that sum and the four counts computed
  before the call it forms the group means, the six distances between them and the six hinge terms, and adds these
  up. That is the loss function of the counts and the sums, applied to the counts as they were when the call was
  entered and to the sum of the two blocks as the call left them.
-/
import proofs.«100966_j32263794327816_2_alg».proof.Proof.FrameIdeal.Frame
import proofs.«100966_j32263794327816_2_alg».proof.Proof.Loss
import Idealize.ShloMosaic.Lib.Pipeline.FrameSuffix
import Idealize.ShloMosaic.Lib.StableHlo.Run
import Idealize.ShloMosaic.Lib.Pipeline.Frame

set_option maxRecDepth 16384

noncomputable section

namespace Cert.KernelIdeal.Tiles

open Idealize.ShloMosaic Idealize.ShloMosaic.TcCoe Idealize.SL.Sem
open Cert.KernelIdeal Cert.KernelIdeal.Gen Cert.KernelIdeal.Frm

/-! ## The lines after the call in eight stretches

The 106 lines after the call are taken in eight stretches: the means (`LA`), the six distances (`LD1` … `LD6`),
and the six hinge terms with their sum (`LF`). Each stretch is read at the buffer it is wanted at, from any buffer
contents `X` before it; a stretch leaves the results of the earlier stretches as they were. -/

/-- The sum of the two blocks and the group means. -/
def LA : List (HloOp τ sig (Elt Ideal)) := hostOps1 ++ hostOps1_1
/-- The distance between the means of the groups 0 and 1. -/
def LD1 : List (HloOp τ sig (Elt Ideal)) := hostOps1_2 ++ hostOps1_3
/-- The distance between the means of the groups 0 and 2. -/
def LD2 : List (HloOp τ sig (Elt Ideal)) := hostOps1_4 ++ hostOps1_5
/-- The distance between the means of the groups 0 and 3. -/
def LD3 : List (HloOp τ sig (Elt Ideal)) := hostOps1_6 ++ hostOps1_7
/-- The distance between the means of the groups 1 and 2. -/
def LD4 : List (HloOp τ sig (Elt Ideal)) := hostOps1_8 ++ hostOps1_9
/-- The distance between the means of the groups 1 and 3. -/
def LD5 : List (HloOp τ sig (Elt Ideal)) := hostOps1_10 ++ hostOps1_11
/-- The distance between the means of the groups 2 and 3. -/
def LD6 : List (HloOp τ sig (Elt Ideal)) := hostOps1_12 ++ hostOps1_13
/-- The six hinge terms and their sum. -/
def LF : List (HloOp τ sig (Elt Ideal)) :=
  hostOps1_14 ++ hostOps1_15 ++ hostOps1_16 ++ hostOps1_17 ++ hostOps1_18 ++ hostOps1_19 ++ hostOps1_20 ++ hostOps1_21 ++ hostOps1_22 ++ hostOps1_23 ++ hostOps1_24 ++ hostOps1_25 ++ hostOps1_26

/-- The lines after the call are the eight stretches in order. -/
theorem tail_eq : (tailOps : List (List (HloOp τ sig (Elt Ideal)))).flatten
    = LA ++ (LD1 ++ (LD2 ++ (LD3 ++ (LD4 ++ (LD5 ++ (LD6 ++ LF)))))) := by
  unfold LA LD1 LD2 LD3 LD4 LD5 LD6 LF
  simp only [tailOps, List.flatten_cons, List.flatten_nil, List.append_nil, List.append_assoc]

/-- The sum of six hinge terms from the six distances. -/
def combine (d01 d02 d03 d12 d13 d23 : FVec Ideal S_ .f32) : FVec Ideal S_ .f32 :=
  addf (addf (addf (addf (addf
    (Cert.Loss.hinge d01 d02 Cert.Loss.m075)
    (Cert.Loss.hinge d01 d03 Cert.Loss.m150))
    (Cert.Loss.hinge d12 d13 Cert.Loss.m075))
    (Cert.Loss.hinge d12 d03 Cert.Loss.m150))
    (Cert.Loss.hinge d23 d13 Cert.Loss.m075))
    (Cert.Loss.hinge d23 d03 Cert.Loss.m150)

section Stretches

open Idealize.ShloMosaic.StableHlo

variable (X : Valuation τ sig (Elt Ideal))

/-- The first stretch leaves the group means of the counts and the sum of the two blocks. -/
theorem stA : after LA X (Proc.devRef .tc main_v42)
    = Cert.Loss.means (X (Proc.devRef .tc main_v30))
        (Host.reduceAdd (F := Ideal) (X (Proc.devRef .tc main_v32)) (constant (F := Ideal) S_ .f32 0x00000000#32)
          reducesTo_S2x4x256_S4x256_d0 h_S_) := by
  unfold LA
  simp only [hostOps1, hostOps1_1, List.cons_append, List.nil_append]
  after_results_simp
  rfl

/-- Stretch 2 leaves the distance between rows 0 and 1 of the means. -/
theorem stD1 : after LD1 X (Proc.devRef .tc main_v48)
    = Cert.Loss.dist (Cert.Loss.row0 (X (Proc.devRef .tc main_v42))) (Cert.Loss.row1 (X (Proc.devRef .tc main_v42))) := by
  unfold LD1
  simp only [hostOps1_2, hostOps1_3, List.cons_append, List.nil_append]
  after_results_simp
  rfl

theorem frD1_v42 : after LD1 X (Proc.devRef .tc main_v42) = X (Proc.devRef .tc main_v42) := by
  unfold LD1
  simp only [hostOps1_2, hostOps1_3, List.cons_append, List.nil_append]
  after_results_simp

/-- Stretch 3 leaves the distance between rows 0 and 2 of the means. -/
theorem stD2 : after LD2 X (Proc.devRef .tc main_v54)
    = Cert.Loss.dist (Cert.Loss.row0 (X (Proc.devRef .tc main_v42))) (Cert.Loss.row2 (X (Proc.devRef .tc main_v42))) := by
  unfold LD2
  simp only [hostOps1_4, hostOps1_5, List.cons_append, List.nil_append]
  after_results_simp
  rfl

theorem frD2_v42 : after LD2 X (Proc.devRef .tc main_v42) = X (Proc.devRef .tc main_v42) := by
  unfold LD2
  simp only [hostOps1_4, hostOps1_5, List.cons_append, List.nil_append]
  after_results_simp

theorem frD2_v48 : after LD2 X (Proc.devRef .tc main_v48) = X (Proc.devRef .tc main_v48) := by
  unfold LD2
  simp only [hostOps1_4, hostOps1_5, List.cons_append, List.nil_append]
  after_results_simp

/-- Stretch 4 leaves the distance between rows 0 and 3 of the means. -/
theorem stD3 : after LD3 X (Proc.devRef .tc main_v60)
    = Cert.Loss.dist (Cert.Loss.row0 (X (Proc.devRef .tc main_v42))) (Cert.Loss.row3 (X (Proc.devRef .tc main_v42))) := by
  unfold LD3
  simp only [hostOps1_6, hostOps1_7, List.cons_append, List.nil_append]
  after_results_simp
  rfl

theorem frD3_v42 : after LD3 X (Proc.devRef .tc main_v42) = X (Proc.devRef .tc main_v42) := by
  unfold LD3
  simp only [hostOps1_6, hostOps1_7, List.cons_append, List.nil_append]
  after_results_simp

theorem frD3_v48 : after LD3 X (Proc.devRef .tc main_v48) = X (Proc.devRef .tc main_v48) := by
  unfold LD3
  simp only [hostOps1_6, hostOps1_7, List.cons_append, List.nil_append]
  after_results_simp

theorem frD3_v54 : after LD3 X (Proc.devRef .tc main_v54) = X (Proc.devRef .tc main_v54) := by
  unfold LD3
  simp only [hostOps1_6, hostOps1_7, List.cons_append, List.nil_append]
  after_results_simp

/-- Stretch 5 leaves the distance between rows 1 and 2 of the means. -/
theorem stD4 : after LD4 X (Proc.devRef .tc main_v66)
    = Cert.Loss.dist (Cert.Loss.row1 (X (Proc.devRef .tc main_v42))) (Cert.Loss.row2 (X (Proc.devRef .tc main_v42))) := by
  unfold LD4
  simp only [hostOps1_8, hostOps1_9, List.cons_append, List.nil_append]
  after_results_simp
  rfl

theorem frD4_v42 : after LD4 X (Proc.devRef .tc main_v42) = X (Proc.devRef .tc main_v42) := by
  unfold LD4
  simp only [hostOps1_8, hostOps1_9, List.cons_append, List.nil_append]
  after_results_simp

theorem frD4_v48 : after LD4 X (Proc.devRef .tc main_v48) = X (Proc.devRef .tc main_v48) := by
  unfold LD4
  simp only [hostOps1_8, hostOps1_9, List.cons_append, List.nil_append]
  after_results_simp

theorem frD4_v54 : after LD4 X (Proc.devRef .tc main_v54) = X (Proc.devRef .tc main_v54) := by
  unfold LD4
  simp only [hostOps1_8, hostOps1_9, List.cons_append, List.nil_append]
  after_results_simp

theorem frD4_v60 : after LD4 X (Proc.devRef .tc main_v60) = X (Proc.devRef .tc main_v60) := by
  unfold LD4
  simp only [hostOps1_8, hostOps1_9, List.cons_append, List.nil_append]
  after_results_simp

/-- Stretch 6 leaves the distance between rows 1 and 3 of the means. -/
theorem stD5 : after LD5 X (Proc.devRef .tc main_v72)
    = Cert.Loss.dist (Cert.Loss.row1 (X (Proc.devRef .tc main_v42))) (Cert.Loss.row3 (X (Proc.devRef .tc main_v42))) := by
  unfold LD5
  simp only [hostOps1_10, hostOps1_11, List.cons_append, List.nil_append]
  after_results_simp
  rfl

theorem frD5_v42 : after LD5 X (Proc.devRef .tc main_v42) = X (Proc.devRef .tc main_v42) := by
  unfold LD5
  simp only [hostOps1_10, hostOps1_11, List.cons_append, List.nil_append]
  after_results_simp

theorem frD5_v48 : after LD5 X (Proc.devRef .tc main_v48) = X (Proc.devRef .tc main_v48) := by
  unfold LD5
  simp only [hostOps1_10, hostOps1_11, List.cons_append, List.nil_append]
  after_results_simp

theorem frD5_v54 : after LD5 X (Proc.devRef .tc main_v54) = X (Proc.devRef .tc main_v54) := by
  unfold LD5
  simp only [hostOps1_10, hostOps1_11, List.cons_append, List.nil_append]
  after_results_simp

theorem frD5_v60 : after LD5 X (Proc.devRef .tc main_v60) = X (Proc.devRef .tc main_v60) := by
  unfold LD5
  simp only [hostOps1_10, hostOps1_11, List.cons_append, List.nil_append]
  after_results_simp

theorem frD5_v66 : after LD5 X (Proc.devRef .tc main_v66) = X (Proc.devRef .tc main_v66) := by
  unfold LD5
  simp only [hostOps1_10, hostOps1_11, List.cons_append, List.nil_append]
  after_results_simp

/-- Stretch 7 leaves the distance between rows 2 and 3 of the means. -/
theorem stD6 : after LD6 X (Proc.devRef .tc main_v78)
    = Cert.Loss.dist (Cert.Loss.row2 (X (Proc.devRef .tc main_v42))) (Cert.Loss.row3 (X (Proc.devRef .tc main_v42))) := by
  unfold LD6
  simp only [hostOps1_12, hostOps1_13, List.cons_append, List.nil_append]
  after_results_simp
  rfl

theorem frD6_v48 : after LD6 X (Proc.devRef .tc main_v48) = X (Proc.devRef .tc main_v48) := by
  unfold LD6
  simp only [hostOps1_12, hostOps1_13, List.cons_append, List.nil_append]
  after_results_simp

theorem frD6_v54 : after LD6 X (Proc.devRef .tc main_v54) = X (Proc.devRef .tc main_v54) := by
  unfold LD6
  simp only [hostOps1_12, hostOps1_13, List.cons_append, List.nil_append]
  after_results_simp

theorem frD6_v60 : after LD6 X (Proc.devRef .tc main_v60) = X (Proc.devRef .tc main_v60) := by
  unfold LD6
  simp only [hostOps1_12, hostOps1_13, List.cons_append, List.nil_append]
  after_results_simp

theorem frD6_v66 : after LD6 X (Proc.devRef .tc main_v66) = X (Proc.devRef .tc main_v66) := by
  unfold LD6
  simp only [hostOps1_12, hostOps1_13, List.cons_append, List.nil_append]
  after_results_simp

theorem frD6_v72 : after LD6 X (Proc.devRef .tc main_v72) = X (Proc.devRef .tc main_v72) := by
  unfold LD6
  simp only [hostOps1_12, hostOps1_13, List.cons_append, List.nil_append]
  after_results_simp

/-- The last stretch leaves the sum of the six hinge terms of the six distances. -/
theorem stF : after LF X (Proc.devRef .tc main_v101)
    = combine (X (Proc.devRef .tc main_v48)) (X (Proc.devRef .tc main_v54)) (X (Proc.devRef .tc main_v60))
        (X (Proc.devRef .tc main_v66)) (X (Proc.devRef .tc main_v72)) (X (Proc.devRef .tc main_v78)) := by
  unfold LF
  simp only [hostOps1_14, hostOps1_15, hostOps1_16, hostOps1_17, hostOps1_18, hostOps1_19, hostOps1_20, hostOps1_21, hostOps1_22, hostOps1_23, hostOps1_24, hostOps1_25, hostOps1_26, List.cons_append, List.nil_append]
  after_results_simp
  rfl

end Stretches

/-- The result buffer after the last host line: the loss of the counts at entry and the sum of the two blocks. -/
theorem loss_at_exit (m : (ℓ : Loc nD τ sig) → Buf (Elt Ideal) ℓ) (c : Dev nD) :
    Pipeline.afterTail₀ cfgs (dats m) 0 (V0 m) tailOps c main_v101
      = Cert.Loss.loss (V m c main_v30)
          (Host.reduceAdd (F := Ideal) ((dats m 0 c).arrAt 2 cfg0.N) (constant (F := Ideal) S_ .f32 0x00000000#32)
            reducesTo_S2x4x256_S4x256_d0 h_S_) := by
  have h32 : Pipeline.withArrays (cfgs 0).spec c (V0 m c) (fun w => (dats m 0 c).arrAt w (cfgs 0).N) (Proc.devRef .tc main_v32)
      = (dats m 0 c).arrAt 2 cfg0.N :=
    Pipeline.withArrays_arr spec0 launch0.win.arr_inj c _ _ 2
  have h30 : Pipeline.withArrays (cfgs 0).spec c (V0 m c) (fun w => (dats m 0 c).arrAt w (cfgs 0).N) (Proc.devRef .tc main_v30)
      = V0 m c (Proc.devRef .tc main_v30) :=
    Pipeline.withArrays_of_ne spec0 c (V0 m c) _ main_v30 (by decide)
  unfold Pipeline.afterTail₀
  rw [tail_eq]
  simp only [StableHlo.after_append]
  rw [stF, stD6, frD6_v48, frD6_v54, frD6_v60, frD6_v66, frD6_v72,
    stD5, frD5_v48, frD5_v54, frD5_v60, frD5_v66, frD5_v42,
    stD4, frD4_v48, frD4_v54, frD4_v60, frD4_v42,
    stD3, frD3_v48, frD3_v54, frD3_v42,
    stD2, frD2_v48, frD2_v42,
    stD1, frD1_v42, stA]
  rw [h32, h30]
  rfl

end Cert.KernelIdeal.Tiles

end
-- ==== Proof.KernelRun.lean ====
/-
  The idealized kernel's run with its result named: the margin loss of the group counts and the group sums of the
  launch contents, the two arguments unchanged.

  The program's result buffer is written by the last host line; read back through the host lines after the call it
  is the loss arithmetic applied to the counts the host computed before the call (the integer totals of the four
  membership masks, equal to the extended-real counts) and to the sum of the two halves of the call's result (the
  group sums).
-/
import proofs.«100966_j32263794327816_2_alg».proof.Proof.FrameIdeal.Args
import proofs.«100966_j32263794327816_2_alg».proof.Proof.HalfSums
import proofs.«100966_j32263794327816_2_alg».proof.Proof.CountsAtEntry
import proofs.«100966_j32263794327816_2_alg».proof.Proof.HostCountsValue
import proofs.«100966_j32263794327816_2_alg».proof.Proof.LossAtExit

noncomputable section

namespace Cert.KernelIdeal.Sums

open Idealize.ShloMosaic Idealize.ShloMosaic.TcCoe Idealize.SL.Sem Idealize.ShloMosaic.ValueIdx
open Cert.KernelIdeal Cert.KernelIdeal.Gen Cert.KernelIdeal.Frm

variable (m : (ℓ : Loc nD τ sig) → Buf (Elt Ideal) ℓ) (ρ : Dev nD → PrngReg)

/-- The result after the run, as a function of the launch contents. -/
abbrev result (c : Dev nD) : Buf (Elt Ideal) ((c.tc : Thread nD τ).loc main_v101) :=
  Cert.Loss.loss (Cert.Groups.counts (tv m c)) (Cert.Groups.sums (feat m c) (tv m c))

/-- What the last host line leaves in the result buffer. -/
theorem result_eq (c : Dev nD) :
    Pipeline.afterTail₀ cfgs (dats m) 0 (V0 m) tailOps c main_v101 = result m c := by
  rw [Cert.KernelIdeal.Tiles.loss_at_exit, Cert.KernelIdeal.Tiles.V_v30, Cert.HostCounts.term_eq, sums_eq m c]

/-- Every weakly fair execution terminates with the result at the loss of the launch contents and the arguments unchanged. -/
theorem kernel_run : θ_run defs (onTc (τ := τ) (main (F := Ideal))) ⟨m, fun _ => 0, ρ⟩ (fun r => ∀ c : Dev nD,
      r.2.mem ((c.tc : Thread nD τ).loc main_v101) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v101 (by decide)).trans (result_eq m c),
     ((h c).1 0).trans (((dats m 0 c).arrAt_in 0 rfl _).trans ((A_eq m c 0).trans (V_main_arg0 m c))),
     ((h c).2 main_arg1 (by decide)).trans (tail_main_arg1 m c)⟩) (run_main m ρ)

end Cert.KernelIdeal.Sums

end
-- ==== Proof.RefSide.lean ====
/-
  The reference, read as the group counts, the group sums, and the shared loss of them.

  The reference stacks the four one-bit membership masks into a 4 × 262144 array, converts it to floats (every entry
  0 or 1), sums each row (the counts) and multiplies it into the feature matrix (the sums); what follows is the
  same loss arithmetic the kernel's host code runs. Row g of the stacked array at column n is the membership bit
  of row n's target value in group g, so its float is the weight of that row in group g.
-/
import proofs.«100966_j32263794327816_2_alg».proof.Defs
import proofs.«100966_j32263794327816_2_alg».proof.Proof.RefRead
import proofs.«100966_j32263794327816_2_alg».proof.Proof.Groups
import proofs.«100966_j32263794327816_2_alg».proof.Proof.Loss
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx Cert.ReferenceIdeal Cert.ReferenceIdeal.Gen Cert.ReferenceIdeal.Read

/-- The four masks that are stacked, each as one row. -/
def rows (x1 : (⟨S262144, .f32⟩ : BufTy).Contents (Elt Ideal)) : List ((s : Shape) × (s.Idx → BitVec 1)) :=
  [⟨S1x262144, val_main_v17 (F := Ideal) x1⟩, ⟨S1x262144, val_main_v18 (F := Ideal) x1⟩,
   ⟨S1x262144, val_main_v19 (F := Ideal) x1⟩, ⟨S1x262144, val_main_v20 (F := Ideal) x1⟩]

/-- Row `g` of the stacked masks is the `g`-th mask: the concatenation along axis 0 of four one-row pieces, read at
    row `g`, column `n`, is piece `g` at its only row and column `n`. -/
theorem stacked_apply (x1 : (⟨S262144, .f32⟩ : BufTy).Contents (Elt Ideal)) (g : Fin 4) (n : Fin 262144)
    (y : (ix : S1x262144.Idx) → BitVec 1)
    (hb : (rows x1)[g.val]'(g.isLt) = ⟨S1x262144, y⟩)
    (hpre : ((((rows x1).take g.val).map (·.1)).map
        fun s => if h : s.rank = S4x262144.rank then s.size ((0 : Fin S4x262144.rank).cast h.symm) else 0).sum = g.val) :
    val_main_v21 (F := Ideal) x1 (ix2 g n) = y (ix2 (0 : Fin 1) n) :=
  concatenate_apply_piece (α := BitVec 1) (0 : Fin S4x262144.rank) (rows x1)
    concatenates_S1x262144_S1x262144_S1x262144_S1x262144_S4x262144_d0 (ix2 g n) g.val g.isLt S1x262144 y hb rfl g.val hpre
    (ix2 (0 : Fin 1) n)
    (fun c hc => match c with
      | ⟨0, _⟩ => absurd rfl hc
      | ⟨1, _⟩ => rfl) rfl

/-- The one-row broadcast's index over row 0, column `n` is row `n` of the vector. -/
theorem idx17 (n : Fin 262144) : idx_main_v17 (ix2 (0 : Fin 1) n) = ix1 n := by
  funext a; match a with | ⟨0, _⟩ => rfl
theorem idx18 (n : Fin 262144) : idx_main_v18 (ix2 (0 : Fin 1) n) = ix1 n := idx17 n
theorem idx19 (n : Fin 262144) : idx_main_v19 (ix2 (0 : Fin 1) n) = ix1 n := idx17 n
theorem idx20 (n : Fin 262144) : idx_main_v20 (ix2 (0 : Fin 1) n) = ix1 n := idx17 n

/-- The entry of the stacked masks at row `g`, column `n` is the membership bit of target `n` in group `g`. -/
theorem v21_apply (x1 : (⟨S262144, .f32⟩ : BufTy).Contents (Elt Ideal)) (g : Fin 4) (n : Fin 262144) :
    val_main_v21 (F := Ideal) x1 (ix2 g n) = Cert.Groups.bit g (x1 (ix1 n)) := by
  match g with
  | 0 =>
    rw [stacked_apply x1 0 n _ rfl rfl, val_main_v17_apply, idx17, val_main_v1_apply, val_main_v0_apply, val_main_cst_apply]
    rfl
  | 1 =>
    rw [stacked_apply x1 1 n _ rfl rfl, val_main_v18_apply, idx18, val_main_v6_apply, val_main_v3_apply, val_main_v5_apply,
      val_main_v2_apply, val_main_v4_apply, val_main_cst_0_apply, val_main_cst_1_apply]
    rfl
  | 2 =>
    rw [stacked_apply x1 2 n _ rfl rfl, val_main_v19_apply, idx19, val_main_v11_apply, val_main_v8_apply, val_main_v10_apply,
      val_main_v7_apply, val_main_v9_apply, val_main_cst_2_apply, val_main_cst_3_apply]
    rfl
  | 3 =>
    rw [stacked_apply x1 3 n _ rfl rfl, val_main_v20_apply, idx20, val_main_v16_apply, val_main_v13_apply, val_main_v15_apply,
      val_main_v12_apply, val_main_v14_apply, val_main_cst_4_apply, val_main_cst_5_apply]
    rfl

/-- The float of that entry is the weight of row `n` in group `g`. -/
theorem v22_apply (x1 : (⟨S262144, .f32⟩ : BufTy).Contents (Elt Ideal)) (g : Fin 4) (n : Fin 262144) :
    val_main_v22 (F := Ideal) x1 (ix2 g n) = Cert.Groups.wt g (x1 (ix1 n)) := by
  rw [val_main_v22_apply, v21_apply]; rfl

/-- The reference's count of group `g`: the float sum of row `g` from zero. -/
theorem counts_apply (x1 : (⟨S262144, .f32⟩ : BufTy).Contents (Elt Ideal)) (g : Fin 4) :
    val_main_v23 (F := Ideal) x1 (ix1 g) = Cert.Groups.countAt x1 g := by
  rw [val_main_v23_apply, val_main_cst_6_apply]
  show Ideal.ofBits .f32 0x00000000#32 + _ = _
  rw [Ideal.ofBits_zero_f32, zero_add]
  unfold Cert.Groups.countAt
  refine Finset.sum_congr rfl fun k _ => ?_
  have hi : idx_main_v23 (ix1 g) k = ix2 g k := by
    funext a; match a with | ⟨0, _⟩ => rfl | ⟨1, _⟩ => rfl
  rw [hi, v22_apply]

/-- The reference's sum of group `g`, column `d`: the product of row `g` with column `d` of the features. -/
theorem sums_apply (x0 : (⟨S262144x256, .f32⟩ : BufTy).Contents (Elt Ideal))
    (x1 : (⟨S262144, .f32⟩ : BufTy).Contents (Elt Ideal)) (g : Fin 4) (d : Fin 256) :
    val_main_v24 (F := Ideal) x0 x1 (ix2 g d) = Cert.Groups.sumAt x0 x1 g d := by
  rw [val_main_v24_apply]
  unfold Cert.Groups.sumAt
  refine Finset.sum_congr rfl fun k _ => ?_
  have hl : lidx_main_v24 (ix2 g d) k = ix2 g k := by
    funext a; match a with | ⟨0, _⟩ => rfl | ⟨1, _⟩ => rfl
  have hr : ridx_main_v24 (ix2 g d) k = ix2 k d := by
    funext a; match a with | ⟨0, _⟩ => rfl | ⟨1, _⟩ => rfl
  rw [hl, hr, v22_apply]

/-- The reference's row sums are the group counts. -/
theorem ref_counts (x1 : (⟨Cert.ReferenceIdeal.S262144, .f32⟩ : BufTy).Contents (Elt Ideal)) :
    Cert.ReferenceIdeal.Read.val_main_v23 (F := Ideal) x1 = Cert.Groups.counts x1 := by
  funext i
  calc val_main_v23 (F := Ideal) x1 i = val_main_v23 (F := Ideal) x1 (ix1 (i 0)) :=
        congrArg (val_main_v23 (F := Ideal) x1) (eq_ix1 i)
    _ = Cert.Groups.countAt x1 (i 0) := counts_apply x1 (i 0)

/-- The reference's matrix product is the group sums. -/
theorem ref_sums (x0 : (⟨Cert.ReferenceIdeal.S262144x256, .f32⟩ : BufTy).Contents (Elt Ideal))
    (x1 : (⟨Cert.ReferenceIdeal.S262144, .f32⟩ : BufTy).Contents (Elt Ideal)) :
    Cert.ReferenceIdeal.Read.val_main_v24 (F := Ideal) x0 x1 = Cert.Groups.sums x0 x1 := by
  funext i
  calc val_main_v24 (F := Ideal) x0 x1 i = val_main_v24 (F := Ideal) x0 x1 (ix2 (i 0) (i 1)) :=
        congrArg (val_main_v24 (F := Ideal) x0 x1) (eq_ix2 i)
    _ = Cert.Groups.sumAt x0 x1 (i 0) (i 1) := sums_apply x0 x1 (i 0) (i 1)

/-- The reference's arithmetic after the counts and the sums is, operation for operation, the shared loss of them. -/
theorem loss_shape (x0 : (⟨Cert.ReferenceIdeal.S262144x256, .f32⟩ : BufTy).Contents (Elt Ideal))
    (x1 : (⟨Cert.ReferenceIdeal.S262144, .f32⟩ : BufTy).Contents (Elt Ideal)) :
    Cert.ReferenceIdeal.Read.val_main_v92 (F := Ideal) x0 x1
      = Cert.Loss.loss (val_main_v23 (F := Ideal) x1) (val_main_v24 (F := Ideal) x0 x1) := rfl

/-- The reference's result is the shared loss of the group counts and the group sums. -/
theorem ref_loss (x0 : (⟨Cert.ReferenceIdeal.S262144x256, .f32⟩ : BufTy).Contents (Elt Ideal))
    (x1 : (⟨Cert.ReferenceIdeal.S262144, .f32⟩ : BufTy).Contents (Elt Ideal)) :
    Cert.ReferenceIdeal.Read.val_main_v92 (F := Ideal) x0 x1
      = Cert.Loss.loss (Cert.Groups.counts x1) (Cert.Groups.sums x0 x1) :=
  (loss_shape x0 x1).trans (congrArg₂ Cert.Loss.loss (ref_counts x1) (ref_sums x0 x1))

end Cert.RefSide

end
-- ==== Proof.lean ====
/-
  The certificate: a masked group-sum kernel against its jnp reference, equal over the extended reals.

  Both programs take a feature matrix [262144, 256] and a target vector [262144], form four groups of rows by
  thresholds on the target, and compute a margin loss from the groups' counts and column sums. The reference sums
  the masked rows with one matrix product and counts with a float sum; the kernel streams the rows in 2 × 16 tiles
  of 8192, accumulates each half's masked sums on the chip (bf16 operands, f32 accumulator: exact here), adds the
  two halves on the host, and counts with integer sums. At the exact instance both results are the same function of
  the launch contents: `Cert.Loss.loss (Cert.Groups.counts t) (Cert.Groups.sums feat t)`; the sums agree because a
  sum over all rows may be grouped into tiles and halves in any order (addition of extended reals is commutative
  and associative), the counts because 262144 ones do not overflow a 32-bit integer.

  The three frames: each kernel program runs to the end without a fault and leaves its arguments unchanged (the
  launch theorem for a call between host lines, with the body's triple at every grid point); the reference's frame
  is its run with the result dropped. The ideal pass rewrote nothing, so `preserves` is trivial.
-/
import proofs.«100966_j32263794327816_2_alg».proof.Defs
import proofs.«100966_j32263794327816_2_alg».proof.Proof.Gen.Kernel
import proofs.«100966_j32263794327816_2_alg».proof.Proof.Gen.KernelIdeal
import proofs.«100966_j32263794327816_2_alg».proof.Proof.Gen.ReferenceIdeal
import proofs.«100966_j32263794327816_2_alg».proof.Proof.Gen.Pre_finite_inputs
import proofs.«100966_j32263794327816_2_alg».proof.Proof.FrameBits.Args
import proofs.«100966_j32263794327816_2_alg».proof.Proof.KernelRun
import proofs.«100966_j32263794327816_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the loss of the group counts and group sums of arguments that agree. -/
theorem algebraic : Cert.algebraic_KernelIdeal_ReferenceIdeal := by
  intro m ρ m' ρ' _ hagree
  refine ⟨_, Cert.KernelIdeal.Sums.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.RefSide.ref_loss, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
